-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32000 : Shape := ⟨2, ![8192, 32000]⟩
abbrev S32000 : Shape := ⟨1, ![32000]⟩
abbrev S_ : Shape := ⟨0, ![]⟩

class Facts : Prop where
  bcast_S_S8192x32000 : S_.BroadcastsInDim S8192x32000 (![] : Fin 0 → Fin S8192x32000.rank)
  reducesTo_S8192x32000_S_d0_1 : S8192x32000.ReducesTo [0, 1] S_
  h_S_ : 0 < S_.numel
  bcast_S_S32000 : S_.BroadcastsInDim S32000 (![] : Fin 0 → Fin S32000.rank)
  reducesTo_S32000_S_d0 : S32000.ReducesTo [0] S_

variable [Facts]

def fn {F : FTy → Type} [FloatOps F] (main_arg0 : FVec F S8192x32000 .f32) (main_arg1 : FVec F S8192x32000 .f32) (main_arg2 : FVec F S32000 .f32) : IVec S_ 1 :=
  let main_v0 : FVec F S8192x32000 .f32 := Host.absf main_arg0
  let main_cst : FVec F S_ .f32 := constant S_ .f32 0x7F800000#32
  let main_v1 : FVec F S8192x32000 .f32 := broadcastInDim S8192x32000 ![] bcast_S_S8192x32000 main_cst
  let main_v2 : IVec S8192x32000 1 := cmpf .olt main_v0 main_v1
  let main_c : IVec S_ 1 := constantI S_ 1 1#1
  let main_v3 : IVec S_ 1 := (fun x v => Host.reduce IntOp.andi x v reducesTo_S8192x32000_S_d0_1 h_S_) main_v2 main_c
  let main_v4 : FVec F S8192x32000 .f32 := Host.absf main_arg1
  let main_cst_0 : FVec F S_ .f32 := constant S_ .f32 0x7F800000#32
  let main_v5 : FVec F S8192x32000 .f32 := broadcastInDim S8192x32000 ![] bcast_S_S8192x32000 main_cst_0
  let main_v6 : IVec S8192x32000 1 := cmpf .olt main_v4 main_v5
  let main_c_1 : IVec S_ 1 := constantI S_ 1 1#1
  let main_v7 : IVec S_ 1 := (fun x v => Host.reduce IntOp.andi x v reducesTo_S8192x32000_S_d0_1 h_S_) main_v6 main_c_1
  let main_v8 : IVec S_ 1 := andi main_v3 main_v7
  let main_v9 : FVec F S32000 .f32 := Host.absf main_arg2
  let main_cst_2 : FVec F S_ .f32 := constant S_ .f32 0x7F800000#32
  let main_v10 : FVec F S32000 .f32 := broadcastInDim S32000 ![] bcast_S_S32000 main_cst_2
  let main_v11 : IVec S32000 1 := cmpf .olt main_v9 main_v10
  let main_c_3 : IVec S_ 1 := constantI S_ 1 1#1
  let main_v12 : IVec S_ 1 := (fun x v => Host.reduce IntOp.andi x v reducesTo_S32000_S_d0 h_S_) main_v11 main_c_3
  let main_v13 : IVec S_ 1 := andi main_v8 main_v12
  main_v13
-- ==== Kernel.lean ====
abbrev S8192x32000 : Shape := ⟨2, ![8192, 32000]⟩
abbrev S32000 : Shape := ⟨1, ![32000]⟩
abbrev S1x32000 : Shape := ⟨2, ![1, 32000]⟩
abbrev S8192x1 : Shape := ⟨2, ![8192, 1]⟩
abbrev S64x32000 : Shape := ⟨2, ![64, 32000]⟩
abbrev S64x1 : Shape := ⟨2, ![64, 1]⟩
abbrev S64x3200 : Shape := ⟨2, ![64, 3200]⟩
abbrev S64 : Shape := ⟨1, ![64]⟩
abbrev S1x3200 : Shape := ⟨2, ![1, 3200]⟩
abbrev S8192 : Shape := ⟨1, ![8192]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S8192x32000, .f32⟩
  | .hbm, ⟨1, _⟩ => ⟨S8192x32000, .f32⟩
  | .hbm, ⟨2, _⟩ => ⟨S32000, .f32⟩
  | .hbm, ⟨3, _⟩ => ⟨S1x32000, .f32⟩
  | .hbm, ⟨4, _⟩ => ⟨S8192x1, .f32⟩
  | .hbm, ⟨5, _⟩ => ⟨S8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S64x32000, .f32⟩
  | .local _ .vmem, ⟨1, _⟩ => ⟨S64x32000, .f32⟩
  | .local _ .vmem, ⟨2, _⟩ => ⟨S64x32000, .f32⟩
  | .local _ .vmem, ⟨3, _⟩ => ⟨S64x32000, .f32⟩
  | .local _ .vmem, ⟨4, _⟩ => ⟨S1x32000, .f32⟩
  | .local _ .vmem, ⟨5, _⟩ => ⟨S64x1, .f32⟩
  | .local _ .vmem, ⟨6, _⟩ => ⟨S64x1, .f32⟩
  | _, _ => ⟨S8192x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x32000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32000_S1x32000 : S32000.ShapeCasts S1x32000
  inb_S64x32000_S64x3200_0_0 : ∀ a, (![0, 0] : Fin 2 → Nat) a + S64x3200.size a ≤ S64x32000.size a
  h_S64x3200 : 0 < S64x3200.numel
  reduces_S64x3200_S64 : S64x3200.Reduces [1] S64
  shapeCasts_S64_S64x1 : S64.ShapeCasts S64x1
  inb_S64x32000_S64x3200_0_3200 : ∀ a, (![0, 3200] : Fin 2 → Nat) a + S64x3200.size a ≤ S64x32000.size a
  inb_S64x32000_S64x3200_0_6400 : ∀ a, (![0, 6400] : Fin 2 → Nat) a + S64x3200.size a ≤ S64x32000.size a
  inb_S64x32000_S64x3200_0_9600 : ∀ a, (![0, 9600] : Fin 2 → Nat) a + S64x3200.size a ≤ S64x32000.size a
  inb_S64x32000_S64x3200_0_12800 : ∀ a, (![0, 12800] : Fin 2 → Nat) a + S64x3200.size a ≤ S64x32000.size a
  inb_S64x32000_S64x3200_0_16000 : ∀ a, (![0, 16000] : Fin 2 → Nat) a + S64x3200.size a ≤ S64x32000.size a
  inb_S64x32000_S64x3200_0_19200 : ∀ a, (![0, 19200] : Fin 2 → Nat) a + S64x3200.size a ≤ S64x32000.size a
  inb_S64x32000_S64x3200_0_22400 : ∀ a, (![0, 22400] : Fin 2 → Nat) a + S64x3200.size a ≤ S64x32000.size a
  inb_S64x32000_S64x3200_0_25600 : ∀ a, (![0, 25600] : Fin 2 → Nat) a + S64x3200.size a ≤ S64x32000.size a
  inb_S64x32000_S64x3200_0_28800 : ∀ a, (![0, 28800] : Fin 2 → Nat) a + S64x3200.size a ≤ S64x32000.size a
  inb_S1x32000_S1x3200_0_0 : ∀ a, (![0, 0] : Fin 2 → Nat) a + S1x3200.size a ≤ S1x32000.size a
  h_S1x3200 : 0 < S1x3200.numel
  shapeCasts_S1x3200_S1x3200 : S1x3200.ShapeCasts S1x3200
  broadcasts_S1x3200_S64x3200 : S1x3200.Broadcasts S64x3200
  broadcasts_S64x1_S64x3200 : S64x1.Broadcasts S64x3200
  inb_S1x32000_S1x3200_0_3200 : ∀ a, (![0, 3200] : Fin 2 → Nat) a + S1x3200.size a ≤ S1x32000.size a
  inb_S1x32000_S1x3200_0_6400 : ∀ a, (![0, 6400] : Fin 2 → Nat) a + S1x3200.size a ≤ S1x32000.size a
  inb_S1x32000_S1x3200_0_9600 : ∀ a, (![0, 9600] : Fin 2 → Nat) a + S1x3200.size a ≤ S1x32000.size a
  inb_S1x32000_S1x3200_0_12800 : ∀ a, (![0, 12800] : Fin 2 → Nat) a + S1x3200.size a ≤ S1x32000.size a
  inb_S1x32000_S1x3200_0_16000 : ∀ a, (![0, 16000] : Fin 2 → Nat) a + S1x3200.size a ≤ S1x32000.size a
  inb_S1x32000_S1x3200_0_19200 : ∀ a, (![0, 19200] : Fin 2 → Nat) a + S1x3200.size a ≤ S1x32000.size a
  inb_S1x32000_S1x3200_0_22400 : ∀ a, (![0, 22400] : Fin 2 → Nat) a + S1x3200.size a ≤ S1x32000.size a
  inb_S1x32000_S1x3200_0_25600 : ∀ a, (![0, 25600] : Fin 2 → Nat) a + S1x3200.size a ≤ S1x32000.size a
  inb_S1x32000_S1x3200_0_28800 : ∀ a, (![0, 28800] : Fin 2 → Nat) a + S1x3200.size a ≤ S1x32000.size a
  inb_S64x1_S64x1_0_0 : ∀ a, (![0, 0] : Fin 2 → Nat) a + S64x1.size a ≤ S64x1.size a
  h_S64x1 : 0 < S64x1.numel
  shapeCasts_S8192x1_S8192 : S8192x1.ShapeCasts S8192
  reducesTo_S8192_S_d0 : S8192.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32000.size a ≤ S8192x32000.size a
  hwx0_0 : ∀ i : grid0.Coords, EltTy.bits .f32 = 32 ∨ (Rect.block (s := S8192x32000) S64x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x32000.size a ≤ S8192x32000.size a
  hwx0_1 : ∀ i : grid0.Coords, EltTy.bits .f32 = 32 ∨ (Rect.block (s := S8192x32000) S64x32000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32000.size a ≤ S1x32000.size a
  hwx0_2 : ∀ i : grid0.Coords, EltTy.bits .f32 = 32 ∨ (Rect.block (s := S1x32000) S1x32000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S8192x1.size a
  hwx0_3 : ∀ i : grid0.Coords, EltTy.bits .f32 = 32 ∨ (Rect.block (s := S8192x1) S64x1.size (cc0_transform_3 i) (hinb0_3 i)).WholeWords (EltTy.packing .f32)

variable [Facts₀]

abbrev win0_0 : Pipeline.Window sig grid0 :=
  Pipeline.Window.ofSpec (Memref.whole main_arg0) S64x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x32000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x32000 : Shape := ⟨2, ![8192, 32000]⟩
abbrev S32000 : Shape := ⟨1, ![32000]⟩
abbrev S_ : Shape := ⟨0, ![]⟩
abbrev S8192 : Shape := ⟨1, ![8192]⟩
abbrev S8192x1 : Shape := ⟨2, ![8192, 1]⟩
abbrev S1x32000 : Shape := ⟨2, ![1, 32000]⟩

abbrev nBuf : Space → Nat
  | .hbm => 29
  | .vmem => 0
  | .smem => 0
  | _ => 0

abbrev bufTy : (tb : Table) → Fin (tcTables nBuf tb) → BufTy
  | .hbm, ⟨0, _⟩ => ⟨S8192x32000, .f32⟩
  | .hbm, ⟨1, _⟩ => ⟨S8192x32000, .f32⟩
  | .hbm, ⟨2, _⟩ => ⟨S32000, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192x1, .f32⟩
  | .hbm, ⟨9, _⟩ => ⟨S8192x32000, .f32⟩
  | .hbm, ⟨10, _⟩ => ⟨S8192x32000, .f32⟩
  | .hbm, ⟨11, _⟩ => ⟨S8192x32000, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x1, .f32⟩
  | .hbm, ⟨16, _⟩ => ⟨S8192x32000, .f32⟩
  | .hbm, ⟨17, _⟩ => ⟨S8192x32000, .f32⟩
  | .hbm, ⟨18, _⟩ => ⟨S1x32000, .f32⟩
  | .hbm, ⟨19, _⟩ => ⟨S8192x32000, .f32⟩
  | .hbm, ⟨20, _⟩ => ⟨S8192x32000, .f32⟩
  | .hbm, ⟨21, _⟩ => ⟨S8192x32000, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S8192x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩

abbrev nD : Nat := 1
abbrev τ : Topo := Topo.v7x

variable {F : FTy → Type} [FloatOps F]

class Facts₀ : Prop where
  reducesTo_S8192x32000_S8192_d1 : S8192x32000.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32000_0_1 : S8192x1.BroadcastsInDim S8192x32000 (![0, 1] : Fin 2 → Fin S8192x32000.rank)
  bcast_S32000_S1x32000_1 : S32000.BroadcastsInDim S1x32000 (![1] : Fin 1 → Fin S1x32000.rank)
  bcast_S1x32000_S8192x32000_0_1 : S1x32000.BroadcastsInDim S8192x32000 (![0, 1] : Fin 2 → Fin S8192x32000.rank)
  reducesTo_S8192_S_d0 : S8192.ReducesTo [0] S_

variable [Facts₀]

class Facts : Prop extends Facts₀ where

variable [Facts]
-- ==== Proof.RefRun.lean ====
/-
  The reference program run from any memory: what its result buffer holds, as one term of the three argument arrays.

  The program is a straight line of host operations, so every weakly fair execution terminates with each buffer at the
  fold of the operations over the launch contents. Read at the result buffer that fold is the composition below, named
  stage by stage: the largest entry of each row of scores (`rowMaxes`), the scores less it (`shifted`), the logarithm of
  each row's sum of exponentials (`logSums`), the log-probabilities (`logProbs`), their products with target and class
  weight (`weighted`), the negated row sums (`rowLosses`) and their sum divided by the number of rows (`meanLoss`).
-/
import proofs.«181103_j60559038873702_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference's twenty-six host operations in program order: the eleven of the row-wise log-softmax (row maximum, shift,
    exponential, row sum, logarithm, second shift) stand where the program calls it, then the weighting, the row sums,
    the negation, the sum over rows and the division by the number of rows. -/
abbrev ops : List (HloOp τ sig (Elt F)) :=
  [ TRef.nullary (TRef.of (T := ⟨S_, .f32⟩) main_call0_cst) (constant S_ .f32 0xFF800000#32),
    TRef.binary (TRef.of (T := ⟨S8192x32000, .f32⟩) main_arg0) (TRef.of (T := ⟨S_, .f32⟩) main_call0_cst) (TRef.of (T := ⟨S8192, .f32⟩) main_call0_v0) (fun x v => Host.reduce FloatOps.maximumf x v reducesTo_S8192x32000_S8192_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S8192, .f32⟩) main_call0_v1) (broadcastInDim S8192 ![] bcast_S_S8192),
    TRef.binary (TRef.of (T := ⟨S8192, .f32⟩) main_call0_v1) (TRef.of (T := ⟨S8192, .f32⟩) main_call0_v0) (TRef.of (T := ⟨S8192, .f32⟩) main_call0_v2) maximumf,
    TRef.unary (TRef.of (T := ⟨S8192, .f32⟩) main_call0_v2) (TRef.of (T := ⟨S8192x1, .f32⟩) main_call0_v3) (broadcastInDim S8192x1 ![0] bcast_S8192_S8192x1_0),
    TRef.unary (TRef.of (T := ⟨S8192x1, .f32⟩) main_call0_v3) (TRef.of (T := ⟨S8192x32000, .f32⟩) main_call0_v4) (broadcastInDim S8192x32000 ![0, 1] bcast_S8192x1_S8192x32000_0_1),
    TRef.binary (TRef.of (T := ⟨S8192x32000, .f32⟩) main_arg0) (TRef.of (T := ⟨S8192x32000, .f32⟩) main_call0_v4) (TRef.of (T := ⟨S8192x32000, .f32⟩) main_call0_v5) subf,
    TRef.unary (TRef.of (T := ⟨S8192x32000, .f32⟩) main_call0_v5) (TRef.of (T := ⟨S8192x32000, .f32⟩) main_call0_v6) Host.exp,
    TRef.nullary (TRef.of (T := ⟨S_, .f32⟩) main_call0_cst_1) (constant S_ .f32 0x00000000#32),
    TRef.binary (TRef.of (T := ⟨S8192x32000, .f32⟩) main_call0_v6) (TRef.of (T := ⟨S_, .f32⟩) main_call0_cst_1) (TRef.of (T := ⟨S8192, .f32⟩) main_call0_v7) (fun x v => Host.reduceAdd x v reducesTo_S8192x32000_S8192_d1 h_S_),
    TRef.unary (TRef.of (T := ⟨S8192, .f32⟩) main_call0_v7) (TRef.of (T := ⟨S8192x1, .f32⟩) main_call0_v8) (broadcastInDim S8192x1 ![0] bcast_S8192_S8192x1_0),
    TRef.unary (TRef.of (T := ⟨S8192x1, .f32⟩) main_call0_v8) (TRef.of (T := ⟨S8192x1, .f32⟩) main_call0_v9) Host.log,
    TRef.unary (TRef.of (T := ⟨S8192x1, .f32⟩) main_call0_v9) (TRef.of (T := ⟨S8192x32000, .f32⟩) main_call0_v10) (broadcastInDim S8192x32000 ![0, 1] bcast_S8192x1_S8192x32000_0_1),
    TRef.binary (TRef.of (T := ⟨S8192x32000, .f32⟩) main_call0_v5) (TRef.of (T := ⟨S8192x32000, .f32⟩) main_call0_v10) (TRef.of (T := ⟨S8192x32000, .f32⟩) main_v0) subf,
    unary main_arg2 main_v1 (broadcastInDim S1x32000 ![1] bcast_S32000_S1x32000_1 : (⟨S32000, .f32⟩ : BufTy).Contents (Elt F) → (⟨S1x32000, .f32⟩ : BufTy).Contents (Elt F)),
    unary main_v1 main_v2 (broadcastInDim S8192x32000 ![0, 1] bcast_S1x32000_S8192x32000_0_1 : (⟨S1x32000, .f32⟩ : BufTy).Contents (Elt F) → (⟨S8192x32000, .f32⟩ : BufTy).Contents (Elt F)),
    binary main_arg1 main_v2 main_v3 (mulf : (⟨S8192x32000, .f32⟩ : BufTy).Contents (Elt F) → (⟨S8192x32000, .f32⟩ : BufTy).Contents (Elt F) → (⟨S8192x32000, .f32⟩ : BufTy).Contents (Elt F)),
    binary main_v3 main_v0 main_v4 (mulf : (⟨S8192x32000, .f32⟩ : BufTy).Contents (Elt F) → (⟨S8192x32000, .f32⟩ : BufTy).Contents (Elt F) → (⟨S8192x32000, .f32⟩ : BufTy).Contents (Elt F)),
    nullary main_cst (constant S_ .f32 0x00000000#32),
    binary main_v4 main_cst main_v5 ((fun x v => Host.reduceAdd x v reducesTo_S8192x32000_S8192_d1 h_S_) : (⟨S8192x32000, .f32⟩ : BufTy).Contents (Elt F) → (⟨S_, .f32⟩ : BufTy).Contents (Elt F) → (⟨S8192, .f32⟩ : BufTy).Contents (Elt F)),
    unary main_v5 main_v6 (Host.negf : (⟨S8192, .f32⟩ : BufTy).Contents (Elt F) → (⟨S8192, .f32⟩ : BufTy).Contents (Elt F)),
    nullary main_cst_0 (constant S_ .f32 0x00000000#32),
    binary main_v6 main_cst_0 main_v7 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_1 (constant S_ .f32 0x46000000#32),
    binary main_v7 main_cst_1 main_v8 (Host.divf : (⟨S_, .f32⟩ : BufTy).Contents (Elt F) → (⟨S_, .f32⟩ : BufTy).Contents (Elt F) → (⟨S_, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., unary_bufs_sub .., binary_bufs_sub .., binary_bufs_sub .., nullary_bufs_sub .., binary_bufs_sub .., unary_bufs_sub .., nullary_bufs_sub .., binary_bufs_sub .., nullary_bufs_sub .., binary_bufs_sub ..⟩

/-! ## The result, stage by stage -/

/-- The largest entry of each row of scores (the reduction from `-∞`, then the maximum with `-∞` once more). -/
def rowMaxes (x0 : (⟨S8192x32000, .f32⟩ : BufTy).Contents (Elt F)) : (⟨S8192, .f32⟩ : BufTy).Contents (Elt F) :=
  maximumf (broadcastInDim S8192 ![] bcast_S_S8192 (constant S_ .f32 0xFF800000#32))
    (Host.reduce FloatOps.maximumf x0 (constant S_ .f32 0xFF800000#32) reducesTo_S8192x32000_S8192_d1 h_S_)

/-- The scores, each less its row's largest. -/
def shifted (x0 : (⟨S8192x32000, .f32⟩ : BufTy).Contents (Elt F)) : (⟨S8192x32000, .f32⟩ : BufTy).Contents (Elt F) :=
  subf x0 (broadcastInDim S8192x32000 ![0, 1] bcast_S8192x1_S8192x32000_0_1 (broadcastInDim S8192x1 ![0] bcast_S8192_S8192x1_0 (rowMaxes x0)))

/-- The logarithm of each row's sum of exponentials of the shifted scores, as a column. -/
def logSums (x0 : (⟨S8192x32000, .f32⟩ : BufTy).Contents (Elt F)) : (⟨S8192x1, .f32⟩ : BufTy).Contents (Elt F) :=
  Host.log (broadcastInDim S8192x1 ![0] bcast_S8192_S8192x1_0
    (Host.reduceAdd (Host.exp (shifted x0)) (constant S_ .f32 0x00000000#32) reducesTo_S8192x32000_S8192_d1 h_S_))

/-- The log-probabilities. -/
def logProbs (x0 : (⟨S8192x32000, .f32⟩ : BufTy).Contents (Elt F)) : (⟨S8192x32000, .f32⟩ : BufTy).Contents (Elt F) :=
  subf (shifted x0) (broadcastInDim S8192x32000 ![0, 1] bcast_S8192x1_S8192x32000_0_1 (logSums x0))

/-- Target times class weight times log-probability. -/
def weighted (x0 x1 : (⟨S8192x32000, .f32⟩ : BufTy).Contents (Elt F)) (x2 : (⟨S32000, .f32⟩ : BufTy).Contents (Elt F)) :
    (⟨S8192x32000, .f32⟩ : BufTy).Contents (Elt F) :=
  mulf (mulf x1 (broadcastInDim S8192x32000 ![0, 1] bcast_S1x32000_S8192x32000_0_1 (broadcastInDim S1x32000 ![1] bcast_S32000_S1x32000_1 x2)))
    (logProbs x0)

/-- The loss of each row: the negated sum of the row's weighted log-probabilities. -/
def rowLosses (x0 x1 : (⟨S8192x32000, .f32⟩ : BufTy).Contents (Elt F)) (x2 : (⟨S32000, .f32⟩ : BufTy).Contents (Elt F)) :
    (⟨S8192, .f32⟩ : BufTy).Contents (Elt F) :=
  Host.negf (Host.reduceAdd (weighted x0 x1 x2) (constant S_ .f32 0x00000000#32) reducesTo_S8192x32000_S8192_d1 h_S_)

/-- The sum of a vector of row losses divided by the number of rows. -/
def meanLoss (v : (⟨S8192, .f32⟩ : BufTy).Contents (Elt F)) : (⟨S_, .f32⟩ : BufTy).Contents (Elt F) :=
  Host.divf (Host.reduceAdd v (constant S_ .f32 0x00000000#32) reducesTo_S8192_S_d0 h_S_) (constant S_ .f32 0x46000000#32)

/-! ## The result buffer after the operations -/

/-- Contents carried to a buffer's own type and back are the contents. -/
theorem ofBuf_toBuf {T : BufTy} (x : TRef sig T) (v : T.Contents (Elt F)) : x.ofBuf (x.toBuf v) = v := by
  obtain ⟨r, h, h2, h3⟩ := x
  subst h
  rfl

/-- At the scores' own buffer the carried type is the buffer's: reading through it is reading the buffer. -/
theorem ofBuf_scores (v : main_arg0.ty.Contents (Elt F)) :
    (TRef.of (T := ⟨S8192x32000, .f32⟩) main_arg0).ofBuf v = v := rfl

/-- Likewise the log-probabilities written to their buffer are the log-probabilities. -/
theorem toBuf_logProbs (v : (⟨S8192x32000, .f32⟩ : BufTy).Contents (Elt F)) :
    (TRef.of (T := ⟨S8192x32000, .f32⟩) main_v0).toBuf v = v := rfl

set_option maxHeartbeats 2000000 in
/-- After the twenty-six operations, from any contents `V` of the buffers, the result buffer holds `meanLoss (rowLosses …)` of
    the three argument buffers' contents: each operation's result read at its own buffer, outermost first. -/
theorem result_eq (V : Valuation τ sig (Elt F)) :
    after ops V (Proc.devRef .tc main_v8)
      = meanLoss (rowLosses (V (Proc.devRef .tc main_arg0)) (V (Proc.devRef .tc main_arg1)) (V (Proc.devRef .tc main_arg2))) := by
  after_results
  simp only [ofBuf_toBuf, ofBuf_scores, toBuf_logProbs, meanLoss, rowLosses, weighted, logProbs, logSums, shifted, rowMaxes]

/-! ## The run -/

/-- From any memory with zero counters, for any float values: every weakly fair execution of the reference terminates with its
    result at `meanLoss (rowLosses …)` of the argument arrays, and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8)
        = meanLoss (rowLosses (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v8).trans (result_eq (launchContents m c)),
      (h c main_arg0).trans (by after_results <;> rfl),
      (h c main_arg1).trans (by after_results <;> rfl),
      (h c main_arg2).trans (by after_results <;> rfl)⟩)
    (run_seq scopedRefs_eq scopedSems_eq defs main (fun _ => ops) main_eq (fun _ => ops_sub) m ρ)

end Cert.ReferenceIdeal.Hand

end
-- ==== Proof.LibRowOps.lean ====
/-
  Rows of a matrix read at an index, for any number of rows `R` and any width `W`.

  A sum along the rows of an `[R, W]` array — the vector unit's lane reduction with a zero accumulator, or the
  host's reduce from an initial value — is, at row `r`, the sum over `k : Fin W` of the entries `(r, k)`
  (the host's: the initial value plus that sum). A vector `[R]` broadcast to a column `[R, 1]` reads its entry
  `r`, and a column `[R, 1]` broadcast along its unit axis to `[R, W]` reads its entry `(r, 0)`. All are stated at
  indices built from literal coordinates, so they rewrite a payload whatever the width.
-/
import Idealize.ShloMosaic.PureOps.Ideal.Laws
import Idealize.ShloMosaic.Lib.Pipeline.Value
import Idealize.ShloMosaic.Lib.ValueIdx
import Idealize.ShloMosaic.Lib.IdealHost

namespace Cert.RowOps

open Idealize.ShloMosaic Idealize.ShloMosaic.ValueIdx
open scoped BigOperators

variable {R W : ℕ} {α : Type}

/-- Over row `r`, the index with column `k` inserted is `(r, k)`. -/
theorem lift_row (h : (⟨2, ![R, W]⟩ : Shape).Reduces [1] ⟨1, ![R]⟩) (r : Fin R) (k : Fin W) :
    h.lift (ix1 r) k = ix2 r k := by
  funext c
  match c with
  | ⟨0, _⟩ => exact Fin.ext rfl
  | ⟨1, _⟩ => exact Fin.ext rfl

/-- A lane sum with the zero accumulator, at row `r`: the sum of the row's entries. -/
theorem rowSumK (src : FVec Ideal ⟨2, ![R, W]⟩ .f32) (h : (⟨2, ![R, W]⟩ : Shape).Reduces [1] ⟨1, ![R]⟩)
    (hφ : FKind.Formats .f32) (hacc : (0x00000000#32 : BitVec 32) = 0x00000000#32) (r : Fin R) :
    multiReduction .add [1] ⟨1, ![R]⟩ src 0x00000000#32 h hφ hacc (ix1 r) = ∑ k : Fin W, src (ix2 r k) := by
  refine (Ideal.multiReduction_add_single src _ h hφ hacc (ix1 r)).trans ?_
  exact Finset.sum_congr rfl fun k _ => congrArg src (lift_row h r k)

/-- The host's sum along the rows from an initial value, at row `r`: that value plus the sum of the row's entries. -/
theorem rowSumH {u : Shape} (x : FVec Ideal ⟨2, ![R, W]⟩ .f32) (init : u.Idx → Ideal .f32)
    (h : (⟨2, ![R, W]⟩ : Shape).ReducesTo [1] ⟨1, ![R]⟩) (hu : 0 < u.numel) (r : Fin R) :
    Host.reduceAdd x init h hu (ix1 r) = init (Shape.Idx.first hu) + ∑ k : Fin W, x (ix2 r k) := by
  have h' : (⟨2, ![R, W]⟩ : Shape).Reduces [1] ⟨1, ![R]⟩ := h.elim fun e hb => ⟨e, Nat.one_pos, hb⟩
  refine (hostReduceAdd_apply x init h hu (ix1 r)).trans ?_
  refine (Ideal.hostReduceAdd_single h h' x _ (ix1 r)).trans ?_
  exact congrArg _ (Finset.sum_congr rfl fun k _ => congrArg x (lift_row h' r k))

/-- A vector `[R]` broadcast to a column `[R, 1]` reads, at `(r, u)`, its entry `r`. -/
theorem bcastCol (v : (⟨1, ![R]⟩ : Shape).Idx → α)
    (h : (⟨1, ![R]⟩ : Shape).BroadcastsInDim ⟨2, ![R, 1]⟩ (![0] : Fin 1 → Fin 2)) (r : Fin R) (u : Fin 1) :
    broadcastInDim ⟨2, ![R, 1]⟩ (![0] : Fin 1 → Fin 2) h v (ix2 r u) = v (ix1 r) := by
  refine broadcastInDim_apply _ h v (ix2 r u) (ix1 r) fun a => ?_
  match a with
  | ⟨0, _⟩ =>
    show r.val = if R = 1 then 0 else r.val
    split
    · have := r.isLt; omega
    · rfl

/-- A column `[R, 1]` broadcast to `[R, W]` reads, at `(r, k)`, its entry `(r, 0)`. -/
theorem bcastRows (v : (⟨2, ![R, 1]⟩ : Shape).Idx → α)
    (h : (⟨2, ![R, 1]⟩ : Shape).BroadcastsInDim ⟨2, ![R, W]⟩ (![0, 1] : Fin 2 → Fin 2)) (r : Fin R) (k : Fin W) :
    broadcastInDim ⟨2, ![R, W]⟩ (![0, 1] : Fin 2 → Fin 2) h v (ix2 r k) = v (ix2 r (0 : Fin 1)) := by
  refine broadcastInDim_apply _ h v (ix2 r k) (ix2 r (0 : Fin 1)) fun a => ?_
  match a with
  | ⟨0, _⟩ =>
    show r.val = if R = 1 then 0 else r.val
    split
    · have := r.isLt; omega
    · rfl
  | ⟨1, _⟩ => rfl

end Cert.RowOps
-- ==== Proof.LibColumns.lean ====
/-
  Column vectors read at an index: the keep-dimension forms of a shape cast and a broadcast.

  A row reduction that keeps its reduced axis leaves an `[a, 1]` column. Three layout steps meet such a column:
  an `[a]` vector cast to the column (entry (i, 0) is entry i), the column cast to a `[1, a]` row (entry (0, i) is
  entry (i, 0): both sit at row-major position i), and the column broadcast along its unit axis to `[a, b]`
  (entry (p, c) is entry (p, 0)). Each is stated at indices built from literal coordinates.
-/
import Idealize.ShloMosaic.Lib.Pipeline.Value
import Idealize.ShloMosaic.Lib.ValueIdx

namespace Cert.Columns

open Idealize.ShloMosaic Idealize.ShloMosaic.ValueIdx

variable {α : Type}

/-- An `[a]` vector cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.LibSoftmaxAvg.lean ====
/-
  Softmax-weighted averaging of one row, on the extended reals.

  A row of scores `s : Fin M → EReal` gives each position the weight `exp (s m - max s)`. A column of values
  `v : Fin M → EReal` is then averaged with these weights in one of two ways: the weighted sum divided once by the total
  weight (`pooled`), or each weight first divided by the total and the quotients used as coefficients (`averaged`).
  On the extended reals the two differ at infinities (a quotient does not distribute over a sum there), but when
  every score and every value is a real number they agree: the largest score is then a real number, each weight a
  positive real, the total weight a positive real, and the identity is `(∑ e·v) / L = ∑ (e / L)·v` over the reals.
  Also here: a finite sum of products of real numbers is a real number (the scores themselves).
-/
import Idealize.ShloMosaic.PureOps.Ideal

noncomputable section

namespace Cert.Attn

open Idealize.ShloMosaic
open scoped BigOperators

/-- An extended real that is a real number. -/
def IsReal (x : EReal) : Prop := ∃ r : ℝ, x = (r : EReal)

/-- The inclusion of the reals commutes with finite sums. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A finite sum of products of real numbers is a real number. -/
theorem dot_real {D : ℕ} (a b : Fin D → EReal) (ha : ∀ d, IsReal (a d)) (hb : ∀ d, IsReal (b d)) :
    IsReal (∑ d, a d * b d) := by
  choose a' ha' using ha
  choose b' hb' using hb
  refine ⟨∑ d, a' d * b' d, ?_⟩
  rw [coe_sum]
  exact Finset.sum_congr rfl fun d _ => by rw [ha' d, hb' d, EReal.coe_mul]

/-- The f32 pattern of -∞ denotes `⊥`. -/
theorem negInf : Ideal.ofBits .f32 0xFF800000#32 = ⊥ := by simp [Ideal.ofBits, Ideal.ieee]

variable {M : ℕ}

/-- The largest entry of a row (from `⊥`, the value of an empty row). -/
def rowMax (s : Fin M → EReal) : EReal := Finset.univ.fold max ⊥ s

/-- The weight of position `m`: the exponential of its score less the row's largest. -/
def weight (s : Fin M → EReal) (m : Fin M) : EReal := Ideal.exp (s m - rowMax s)

/-- The weighted sum of the values, divided by the total weight. -/
def pooled (s v : Fin M → EReal) : EReal := Ideal.div (∑ m, weight s m * v m) (∑ m, weight s m)

/-- The sum of the values, each with its weight's share of the total as coefficient. -/
def averaged (s v : Fin M → EReal) : EReal := ∑ m, Ideal.div (weight s m) (∑ m', weight s m') * v m

/-- The largest entry of a nonempty row of real numbers is a real number. -/
theorem rowMax_real (hM : 0 < M) (s : Fin M → EReal) (hs : ∀ m, IsReal (s m)) : IsReal (rowMax s) := by
  have hlt : rowMax s < ⊤ := (Finset.fold_max_lt _).2 ⟨bot_lt_top, fun m _ => by
    obtain ⟨r, hr⟩ := hs m; rw [hr]; exact EReal.coe_lt_top r⟩
  have hgt : ⊥ < rowMax s := by
    obtain ⟨r, hr⟩ := hs ⟨0, hM⟩
    refine lt_of_lt_of_le (EReal.bot_lt_coe r) ?_
    rw [← hr]
    exact (Finset.le_fold_max _).2 (Or.inr ⟨⟨0, hM⟩, Finset.mem_univ _, le_rfl⟩)
  exact ⟨(rowMax s).toReal, (EReal.coe_toReal hlt.ne hgt.ne').symm⟩

/-- For real scores and real values the two ways of averaging agree. -/
theorem pooled_eq_averaged (hM : 0 < M) (s v : Fin M → EReal) (hs : ∀ m, IsReal (s m)) (hv : ∀ m, IsReal (v m)) :
    pooled s v = averaged s v := by
  obtain ⟨μ, hμ⟩ := rowMax_real hM s hs
  choose s' hs' using hs
  choose v' hv' using hv
  have hw : ∀ m, weight s m = ((Real.exp (s' m - μ) : ℝ) : EReal) := fun m => by
    unfold weight; rw [hμ, hs' m, ← EReal.coe_sub]; rfl
  have hL : (∑ m, weight s m) = ((∑ m, Real.exp (s' m - μ) : ℝ) : EReal) := by
    rw [coe_sum]; exact Finset.sum_congr rfl fun m _ => hw m
  have hpos : (∑ m, Real.exp (s' m - μ) : ℝ) ≠ 0 :=
    ne_of_gt (Finset.sum_pos (fun m _ => Real.exp_pos _) ⟨⟨0, hM⟩, Finset.mem_univ _⟩)
  unfold pooled averaged
  rw [hL]
  simp only [Ideal.div_coe hpos, hw, hv', ← EReal.coe_mul, ← coe_sum]
  refine congrArg _ ?_
  rw [Finset.sum_mul]
  exact Finset.sum_congr rfl fun m _ => by ring

end Cert.Attn

end
-- ==== Proof.Rows.lean ====
/-
  A row of an array with 32000 columns, and a vector of 32000 entries, as functions of the position.

  Both the kernel (which meets a row in ten chunks at offsets `3200 · j`) and the reference (which meets it whole) are
  compared through the row as a function of a natural-number position, zero past the end.
-/
import Idealize.ShloMosaic.Lib.ValueIdx

noncomputable section

namespace Cert.SoftCE

open Idealize.ShloMosaic Idealize.ShloMosaic.ValueIdx

/-- Row `r` of an array with 32000 columns as a function of the position (zero past the row's end). -/
def rowFn {R : ℕ} (X : (⟨2, ![R, 32000]⟩ : Shape).Idx → EReal) (r : Fin R) : ℕ → EReal :=
  fun n => if h : n < 32000 then X (ix2 r ⟨n, h⟩) else 0

theorem rowFn_val {R : ℕ} (X : (⟨2, ![R, 32000]⟩ : Shape).Idx → EReal) (r : Fin R) (k : Fin 32000) :
    rowFn X r k.val = X (ix2 r k) := dif_pos k.isLt

/-- A vector of 32000 entries as a function of the position. -/
def vecFn (w : (⟨1, ![32000]⟩ : Shape).Idx → EReal) : ℕ → EReal :=
  fun n => if h : n < 32000 then w (ix1 ⟨n, h⟩) else 0

theorem vecFn_val (w : (⟨1, ![32000]⟩ : Shape).Idx → EReal) (k : Fin 32000) : vecFn w k.val = w (ix1 k) := dif_pos k.isLt

/-- Two rows that agree entry by entry are one function of the position. -/
theorem rowFn_congr {R R' : ℕ} (X : (⟨2, ![R, 32000]⟩ : Shape).Idx → EReal) (Y : (⟨2, ![R', 32000]⟩ : Shape).Idx → EReal)
    (r : Fin R) (r' : Fin R') (h : ∀ k : Fin 32000, X (ix2 r k) = Y (ix2 r' k)) : rowFn X r = rowFn Y r' := by
  funext n
  unfold rowFn
  split
  · exact h _
  · rfl

/-- A one-row array that agrees with a vector entry by entry is that vector as a function of the position. -/
theorem rowFn_eq_vecFn (X : (⟨2, ![1, 32000]⟩ : Shape).Idx → EReal) (w : (⟨1, ![32000]⟩ : Shape).Idx → EReal)
    (h : ∀ k : Fin 32000, X (ix2 (0 : Fin 1) k) = w (ix1 k)) : rowFn X (0 : Fin 1) = vecFn w := by
  funext n
  unfold rowFn vecFn
  split
  · exact h _
  · rfl

end Cert.SoftCE

end
-- ==== Proof.Payload1.lean ====
/-
  What the body's vector operations read at one row of a 64-row block.

  The body works on ten chunks of 3200 columns. For a chunk `v` and a row `r`: the lane maximum from `-∞`, kept as
  a column, is the largest entry of row `r` of the chunk (from `⊥`); the lane sum from zero, kept as a column, is the
  sum of that row's entries; a chunk of targets times the one row of weights broadcast over the rows is, at `(r, i)`,
  the target at `(r, i)` times the weight at `i`; the exponential of a chunk less a column broadcast along the rows
  is, at `(r, i)`, `exp (v (r, i) - column r)`. A chunk itself is a window of the block: chunk `j` at `(r, i)` is the
  block's row `r` at position `3200 · j + i`.
-/
import proofs.«181103_j60559038873702_2_alg».proof.Proof.Gen.KernelIdeal.Skeleton
import proofs.«181103_j60559038873702_2_alg».proof.Proof.LibRowOps
import proofs.«181103_j60559038873702_2_alg».proof.Proof.LibColumns
import proofs.«181103_j60559038873702_2_alg».proof.Proof.LibSoftmaxAvg
import proofs.«181103_j60559038873702_2_alg».proof.Proof.Rows
import Idealize.ShloMosaic.Lib.ValueIdx
import Idealize.ShloMosaic.Lib.ValueLayout
import Idealize.ShloMosaic.Lib.Pipeline.Value
import Idealize.ShloMosaic.Lib.Pipeline.FrameBody
import Idealize.ShloMosaic.PureOps.Ideal.Laws

noncomputable section

namespace Cert.KernelIdeal.Row

open Cert.KernelIdeal Idealize.ShloMosaic Idealize.ShloMosaic.ValueIdx Cert.RowOps Cert.Columns Cert.Attn Cert.SoftCE
open scoped BigOperators

/-- The exponential and the logarithm of a vector, read at an index. -/
theorem exp_apply {s : Shape} (a : FVec Ideal s .f32) (i : s.Idx) : exp a i = Ideal.exp (a i) := rfl
theorem log_apply {s : Shape} (a : FVec Ideal s .f32) (i : s.Idx) : log a i = Ideal.log (a i) := rfl

/-- The lane maximum of a chunk from `-∞`: at row `r` the largest entry of that row. -/
theorem laneMax_apply (v : FVec Ideal S64x3200 .f32) (h : S64x3200.Reduces [1] S64) (hφ : FKind.Formats .f32)
    (hacc : (0xFF800000#32 : BitVec 32) = 0xFF800000#32) (r : Fin 64) :
    multiReduction .maximumf [1] S64 v 0xFF800000#32 h hφ hacc (ix1 r)
      = (Finset.univ : Finset (Fin 3200)).fold max ⊥ fun i => v (ix2 r i) := by
  refine (Ideal.multiReduction_maximumf_single v _ h hφ hacc (ix1 r)).trans ?_
  have e : (v ∘ h.lift (ix1 r)) = fun i : Fin 3200 => v (ix2 r i) := funext fun k => congrArg v (lift_row h r k)
  rw [e]
  exact congrArg (fun b => (Finset.univ : Finset (Fin 3200)).fold max b fun i => v (ix2 r i)) negInf

/-- The lane sum of a chunk from zero: at row `r` the sum of that row. -/
theorem laneSum_apply (v : FVec Ideal S64x3200 .f32) (h : S64x3200.Reduces [1] S64) (hφ : FKind.Formats .f32)
    (hacc : (0x00000000#32 : BitVec 32) = 0x00000000#32) (r : Fin 64) :
    multiReduction .add [1] S64 v 0x00000000#32 h hφ hacc (ix1 r) = ∑ i : Fin 3200, v (ix2 r i) :=
  rowSumK v h hφ hacc r

/-- A vector cast to a column reads its entry. -/
theorem toCol_apply (v : FVec Ideal S64 .f32) (hc : S64.ShapeCasts S64x1) (r : Fin 64) (u : Fin 1) :
    shapeCast S64x1 v hc (ix2 r u) = v (ix1 r) := shapeCast_a_a1_apply v hc r u

/-- The one row of weights of a chunk, broadcast over the 64 rows. -/
theorem weightRows_apply (w : FVec Ideal S1x3200 .f32) (hs : S1x3200.ShapeCasts S1x3200) (hb : S1x3200.Broadcasts S64x3200)
    (r : Fin 64) (i : Fin 3200) :
    broadcastTo S64x3200 (shapeCast S1x3200 w hs) hb (ix2 r i) = w (ix2 (0 : Fin 1) i) := by
  rw [shapeCast_self]
  exact broadcastTo_1b_ab_apply w hb r i

/-- A column broadcast along the rows of a chunk. -/
theorem colRows_apply (m : FVec Ideal S64x1 .f32) (hb : S64x1.Broadcasts S64x3200) (r : Fin 64) (i : Fin 3200) :
    broadcastTo S64x3200 m hb (ix2 r i) = m (ix2 r (0 : Fin 1)) := broadcastTo_a1_ab_apply m hb r i

/-- The lane sum of the exponentials of a chunk less a column of row values: at row `r`, the sum of `exp (x - m r)`. -/
theorem expSum_chunk (X : FVec Ideal S64x3200 .f32) (m : FVec Ideal S64x1 .f32) (hb : S64x1.Broadcasts S64x3200)
    (h : S64x3200.Reduces [1] S64) (hφ : FKind.Formats .f32) (hacc : (0x00000000#32 : BitVec 32) = 0x00000000#32) (r : Fin 64) :
    multiReduction .add [1] S64 (exp (subf X (broadcastTo S64x3200 m hb))) 0x00000000#32 h hφ hacc (ix1 r)
      = ∑ i : Fin 3200, Ideal.exp (X (ix2 r i) - m (ix2 r (0 : Fin 1))) :=
  (laneSum_apply _ h hφ hacc r).trans (Finset.sum_congr rfl fun i _ => by
    rw [exp_apply, subf_apply, colRows_apply])

/-- The lane sum of a chunk of targets times the weights' row: at row `r`, the sum of `t · w`. -/
theorem twSum_chunk (T : FVec Ideal S64x3200 .f32) (W : FVec Ideal S1x3200 .f32) (hs : S1x3200.ShapeCasts S1x3200)
    (hb : S1x3200.Broadcasts S64x3200) (h : S64x3200.Reduces [1] S64) (hφ : FKind.Formats .f32)
    (hacc : (0x00000000#32 : BitVec 32) = 0x00000000#32) (r : Fin 64) :
    multiReduction .add [1] S64 (mulf T (broadcastTo S64x3200 (shapeCast S1x3200 W hs) hb)) 0x00000000#32 h hφ hacc (ix1 r)
      = ∑ i : Fin 3200, T (ix2 r i) * W (ix2 (0 : Fin 1) i) :=
  (laneSum_apply _ h hφ hacc r).trans (Finset.sum_congr rfl fun i _ => by
    rw [mulf_apply, weightRows_apply])

/-- The lane sum of targets times weights times scores: at row `r`, the sum of `t · w · x`. -/
theorem twxSum_chunk (T X : FVec Ideal S64x3200 .f32) (W : FVec Ideal S1x3200 .f32) (hs : S1x3200.ShapeCasts S1x3200)
    (hb : S1x3200.Broadcasts S64x3200) (h : S64x3200.Reduces [1] S64) (hφ : FKind.Formats .f32)
    (hacc : (0x00000000#32 : BitVec 32) = 0x00000000#32) (r : Fin 64) :
    multiReduction .add [1] S64 (mulf (mulf T (broadcastTo S64x3200 (shapeCast S1x3200 W hs) hb)) X) 0x00000000#32 h hφ hacc (ix1 r)
      = ∑ i : Fin 3200, T (ix2 r i) * W (ix2 (0 : Fin 1) i) * X (ix2 r i) :=
  (laneSum_apply _ h hφ hacc r).trans (Finset.sum_congr rfl fun i _ => by
    rw [mulf_apply, mulf_apply, weightRows_apply])

/-- Chunk `j` of a block of scores or targets, at `(r, i)`, is row `r` of the block at position `3200 · j + i`. -/
theorem chunk_apply (X : Vec Ideal S64x32000 .f32) (off : ℕ) (inb : ∀ a, (![0, off] : Fin 2 → Nat) a + S64x3200.size a ≤ S64x32000.size a)
    (j : ℕ) (hj : off = 3200 * j) (r : Fin 64) (i : Fin 3200) :
    View.ld X (Rect.unit (s := S64x32000) ![0, off] S64x3200.size inb) (ix2 r i) = rowFn X r (3200 * j + i.val) := by
  subst hj
  have hlt : 3200 * j + i.val < 32000 := by
    have h1 : 3200 * j + 3200 ≤ 32000 := inb 1
    have := i.isLt; omega
  unfold rowFn
  rw [dif_pos hlt]
  show X ((Rect.unit (s := S64x32000) ![0, 3200 * j] S64x3200.size inb).idx (ix2 r i)) = _
  refine congrArg X (funext fun a => Fin.ext ?_)
  match a with
  | ⟨0, _⟩ => show 0 + 1 * r.val = r.val; omega
  | ⟨1, _⟩ => show 3200 * j + 1 * i.val = 3200 * j + i.val; omega

/-- Chunk `j` of the one row of weights, at `(0, i)`, is that row at position `3200 · j + i`. -/
theorem wchunk_apply (X : Vec Ideal S1x32000 .f32) (off : ℕ) (inb : ∀ a, (![0, off] : Fin 2 → Nat) a + S1x3200.size a ≤ S1x32000.size a)
    (j : ℕ) (hj : off = 3200 * j) (i : Fin 3200) :
    View.ld X (Rect.unit (s := S1x32000) ![0, off] S1x3200.size inb) (ix2 (0 : Fin 1) i) = rowFn X (0 : Fin 1) (3200 * j + i.val) := by
  subst hj
  have hlt : 3200 * j + i.val < 32000 := by
    have h1 : 3200 * j + 3200 ≤ 32000 := inb 1
    have := i.isLt; omega
  unfold rowFn
  rw [dif_pos hlt]
  show X ((Rect.unit (s := S1x32000) ![0, 3200 * j] S1x3200.size inb).idx (ix2 (0 : Fin 1) i)) = _
  refine congrArg X (funext fun a => Fin.ext ?_)
  match a with
  | ⟨0, _⟩ => show 0 + 1 * 0 = 0; omega
  | ⟨1, _⟩ => show 3200 * j + 1 * i.val = 3200 * j + i.val; omega

end Cert.KernelIdeal.Row

end
-- ==== Proof.Payload2.lean ====
/-
  The body's four running quantities at one row of a block, and the value it stores.

  Over the ten chunks of a 64-row block of scores `X`, targets `T` and the one row of weights `W`, at row `r`:
  the running maximum from `-∞` of the chunks' lane maxima; the logarithm of the running sum from zero of the chunks'
  sums of `exp (x - m)`, `m` the column of row maxima; the running sum of the chunks' sums of `t · w`; and the running
  sum of the chunks' sums of `t · w · x`. The stored value is `(m + log s) · (∑ t·w) - ∑ t·w·x` of these.
-/
import proofs.«181103_j60559038873702_2_alg».proof.Proof.Payload1

noncomputable section

namespace Cert.KernelIdeal.Row

open Cert.KernelIdeal Cert.KernelIdeal.Gen Idealize.ShloMosaic Idealize.ShloMosaic.ValueIdx Cert.Attn
open scoped BigOperators

/-- The running maximum of the chunks' lane maxima, at row `r`. -/
theorem rowMax_chain (X0 X1 X2 X3 X4 X5 X6 X7 X8 X9 : Vec Ideal S64x3200 .f32) (r : Fin 64) (u : Fin 1) :
    k0_pay3 (F := Ideal) (k0_pay2 X0 X1 X2 X3 X4 X5 X6 X7) X8 X9 (ix2 r u)
      = max (max (max (max (max (max (max (max (max (max (⊥) (((Finset.univ : Finset (Fin 3200)).fold max ⊥ fun i => X0 (ix2 r i)))) (((Finset.univ : Finset (Fin 3200)).fold max ⊥ fun i => X1 (ix2 r i)))) (((Finset.univ : Finset (Fin 3200)).fold max ⊥ fun i => X2 (ix2 r i)))) (((Finset.univ : Finset (Fin 3200)).fold max ⊥ fun i => X3 (ix2 r i)))) (((Finset.univ : Finset (Fin 3200)).fold max ⊥ fun i => X4 (ix2 r i)))) (((Finset.univ : Finset (Fin 3200)).fold max ⊥ fun i => X5 (ix2 r i)))) (((Finset.univ : Finset (Fin 3200)).fold max ⊥ fun i => X6 (ix2 r i)))) (((Finset.univ : Finset (Fin 3200)).fold max ⊥ fun i => X7 (ix2 r i)))) (((Finset.univ : Finset (Fin 3200)).fold max ⊥ fun i => X8 (ix2 r i)))) (((Finset.univ : Finset (Fin 3200)).fold max ⊥ fun i => X9 (ix2 r i))) := by
  unfold k0_pay3 k0_pay2
  simp only [addf_apply, subf_apply, mulf_apply, maximumf_apply, exp_apply, log_apply, broadcast_apply, laneMax_apply, laneSum_apply,
    toCol_apply, weightRows_apply, colRows_apply, Ideal.ofBits_def, Ideal.ofBits_zero_f32, negInf]
  exact (congrArg₂ max (congrArg₂ max (congrArg₂ max (congrArg₂ max (congrArg₂ max (congrArg₂ max (congrArg₂ max (congrArg₂ max (congrArg₂ max (congrArg₂ max rfl (laneMax_apply _ _ _ _ r)) (laneMax_apply _ _ _ _ r)) (laneMax_apply _ _ _ _ r)) (laneMax_apply _ _ _ _ r)) (laneMax_apply _ _ _ _ r)) (laneMax_apply _ _ _ _ r)) (laneMax_apply _ _ _ _ r)) (laneMax_apply _ _ _ _ r)) (laneMax_apply _ _ _ _ r)) (laneMax_apply _ _ _ _ r))

/-- The logarithm of the running sum of the chunks' sums of exponentials, at row `r`, for any column of maxima the
    body carries (the one it carries is the running maximum above, built from the first eight chunks' `v32`). -/
theorem logSum_chain (v32 : FVec Ideal S64x1 .f32) (X0 X1 X2 X3 X4 X5 X6 X7 X8 X9 : Vec Ideal S64x3200 .f32) (r : Fin 64) (u : Fin 1) :
    (k0_pay32 (k0_pay3 v32 X8 X9) (k0_pay25 (k0_pay3 v32 X8 X9) (k0_pay20 (k0_pay3 v32 X8 X9) (k0_pay11 (k0_pay3 v32 X8 X9) (k0_pay5 v32 X8 X9 X0) X1 (k0_pay9 v32 X8 X9) X2) (k0_pay15 (k0_pay3 v32 X8 X9) X3) X4 X5) X6 X7) X8 X9 : FVec Ideal S64x1 .f32) (ix2 r u)
      = Ideal.log (0 + ∑ i : Fin 3200, Ideal.exp (X0 (ix2 r i) - (k0_pay3 v32 X8 X9) (ix2 r (0 : Fin 1))) + ∑ i : Fin 3200, Ideal.exp (X1 (ix2 r i) - (k0_pay3 v32 X8 X9) (ix2 r (0 : Fin 1))) + ∑ i : Fin 3200, Ideal.exp (X2 (ix2 r i) - (k0_pay3 v32 X8 X9) (ix2 r (0 : Fin 1))) + ∑ i : Fin 3200, Ideal.exp (X3 (ix2 r i) - (k0_pay3 v32 X8 X9) (ix2 r (0 : Fin 1))) + ∑ i : Fin 3200, Ideal.exp (X4 (ix2 r i) - (k0_pay3 v32 X8 X9) (ix2 r (0 : Fin 1))) + ∑ i : Fin 3200, Ideal.exp (X5 (ix2 r i) - (k0_pay3 v32 X8 X9) (ix2 r (0 : Fin 1))) + ∑ i : Fin 3200, Ideal.exp (X6 (ix2 r i) - (k0_pay3 v32 X8 X9) (ix2 r (0 : Fin 1))) + ∑ i : Fin 3200, Ideal.exp (X7 (ix2 r i) - (k0_pay3 v32 X8 X9) (ix2 r (0 : Fin 1))) + ∑ i : Fin 3200, Ideal.exp (X8 (ix2 r i) - (k0_pay3 v32 X8 X9) (ix2 r (0 : Fin 1))) + ∑ i : Fin 3200, Ideal.exp (X9 (ix2 r i) - (k0_pay3 v32 X8 X9) (ix2 r (0 : Fin 1)))) := by
  unfold k0_pay32 k0_pay25 k0_pay20 k0_pay15 k0_pay11 k0_pay9 k0_pay5
  generalize (k0_pay3 v32 X8 X9) = mcol
  simp only [addf_apply, subf_apply, mulf_apply, maximumf_apply, exp_apply, log_apply, broadcast_apply, laneMax_apply, laneSum_apply,
    toCol_apply, weightRows_apply, colRows_apply, Ideal.ofBits_def, Ideal.ofBits_zero_f32, negInf]
  exact congrArg Ideal.log (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) rfl (expSum_chunk _ _ _ _ _ _ r)) (expSum_chunk _ _ _ _ _ _ r)) (expSum_chunk _ _ _ _ _ _ r)) (expSum_chunk _ _ _ _ _ _ r)) (expSum_chunk _ _ _ _ _ _ r)) (expSum_chunk _ _ _ _ _ _ r)) (expSum_chunk _ _ _ _ _ _ r)) (expSum_chunk _ _ _ _ _ _ r)) (expSum_chunk _ _ _ _ _ _ r)) (expSum_chunk _ _ _ _ _ _ r))

/-- The running sum of the chunks' sums of target times weight, at row `r`. -/
theorem tw_chain (T0 T1 T2 T3 T4 T5 T6 T7 T8 T9 : Vec Ideal S64x3200 .f32) (W0 W1 W2 W3 W4 W5 W6 W7 W8 W9 : Vec Ideal S1x3200 .f32) (r : Fin 64) (u : Fin 1) :
    (k0_pay30 (k0_pay26 (k0_pay17 (k0_pay12 (k0_pay6 T0 W0) (k0_pay8 T1 W1) T2 W2) (k0_pay14 T3 W3) T4 W4) (k0_pay21 T5 W5) T6 W6 T7 W7) T8 W8 T9 W9 : FVec Ideal S64x1 .f32) (ix2 r u)
      = 0 + ∑ i : Fin 3200, T0 (ix2 r i) * W0 (ix2 (0 : Fin 1) i) + ∑ i : Fin 3200, T1 (ix2 r i) * W1 (ix2 (0 : Fin 1) i) + ∑ i : Fin 3200, T2 (ix2 r i) * W2 (ix2 (0 : Fin 1) i) + ∑ i : Fin 3200, T3 (ix2 r i) * W3 (ix2 (0 : Fin 1) i) + ∑ i : Fin 3200, T4 (ix2 r i) * W4 (ix2 (0 : Fin 1) i) + ∑ i : Fin 3200, T5 (ix2 r i) * W5 (ix2 (0 : Fin 1) i) + ∑ i : Fin 3200, T6 (ix2 r i) * W6 (ix2 (0 : Fin 1) i) + ∑ i : Fin 3200, T7 (ix2 r i) * W7 (ix2 (0 : Fin 1) i) + ∑ i : Fin 3200, T8 (ix2 r i) * W8 (ix2 (0 : Fin 1) i) + ∑ i : Fin 3200, T9 (ix2 r i) * W9 (ix2 (0 : Fin 1) i) := by
  unfold k0_pay30 k0_pay29 k0_pay28 k0_pay26 k0_pay24 k0_pay22 k0_pay21 k0_pay19 k0_pay17 k0_pay16 k0_pay14 k0_pay12 k0_pay10 k0_pay8 k0_pay6 k0_pay4
  simp only [addf_apply, subf_apply, mulf_apply, maximumf_apply, exp_apply, log_apply, broadcast_apply, laneMax_apply, laneSum_apply,
    toCol_apply, weightRows_apply, colRows_apply, Ideal.ofBits_def, Ideal.ofBits_zero_f32, negInf]
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) rfl (twSum_chunk _ _ _ _ _ _ _ r)) (twSum_chunk _ _ _ _ _ _ _ r)) (twSum_chunk _ _ _ _ _ _ _ r)) (twSum_chunk _ _ _ _ _ _ _ r)) (twSum_chunk _ _ _ _ _ _ _ r)) (twSum_chunk _ _ _ _ _ _ _ r)) (twSum_chunk _ _ _ _ _ _ _ r)) (twSum_chunk _ _ _ _ _ _ _ r)) (twSum_chunk _ _ _ _ _ _ _ r)) (twSum_chunk _ _ _ _ _ _ _ r))

/-- The running sum of the chunks' sums of target times weight times score, at row `r`. -/
theorem twx_chain (X0 X1 X2 X3 X4 X5 X6 X7 X8 X9 : Vec Ideal S64x3200 .f32) (T0 T1 T2 T3 T4 T5 T6 T7 T8 T9 : Vec Ideal S64x3200 .f32) (W0 W1 W2 W3 W4 W5 W6 W7 W8 W9 : Vec Ideal S1x3200 .f32) (r : Fin 64) (u : Fin 1) :
    (k0_pay31 (k0_pay23 (k0_pay18 (k0_pay13 (k0_pay7 X0 T0 W0) X1 (k0_pay8 T1 W1) X2 T2 W2) X3 (k0_pay14 T3 W3) X4 T4 W4) X5 (k0_pay19 T5 W5) X6 T6 W6) (k0_pay27 X7 T7 W7) X8 T8 W8 X9 T9 W9 : FVec Ideal S64x1 .f32) (ix2 r u)
      = 0 + ∑ i : Fin 3200, T0 (ix2 r i) * W0 (ix2 (0 : Fin 1) i) * X0 (ix2 r i) + ∑ i : Fin 3200, T1 (ix2 r i) * W1 (ix2 (0 : Fin 1) i) * X1 (ix2 r i) + ∑ i : Fin 3200, T2 (ix2 r i) * W2 (ix2 (0 : Fin 1) i) * X2 (ix2 r i) + ∑ i : Fin 3200, T3 (ix2 r i) * W3 (ix2 (0 : Fin 1) i) * X3 (ix2 r i) + ∑ i : Fin 3200, T4 (ix2 r i) * W4 (ix2 (0 : Fin 1) i) * X4 (ix2 r i) + ∑ i : Fin 3200, T5 (ix2 r i) * W5 (ix2 (0 : Fin 1) i) * X5 (ix2 r i) + ∑ i : Fin 3200, T6 (ix2 r i) * W6 (ix2 (0 : Fin 1) i) * X6 (ix2 r i) + ∑ i : Fin 3200, T7 (ix2 r i) * W7 (ix2 (0 : Fin 1) i) * X7 (ix2 r i) + ∑ i : Fin 3200, T8 (ix2 r i) * W8 (ix2 (0 : Fin 1) i) * X8 (ix2 r i) + ∑ i : Fin 3200, T9 (ix2 r i) * W9 (ix2 (0 : Fin 1) i) * X9 (ix2 r i) := by
  unfold k0_pay31 k0_pay29 k0_pay28 k0_pay27 k0_pay24 k0_pay23 k0_pay22 k0_pay19 k0_pay18 k0_pay16 k0_pay14 k0_pay13 k0_pay10 k0_pay8 k0_pay7 k0_pay4
  simp only [addf_apply, subf_apply, mulf_apply, maximumf_apply, exp_apply, log_apply, broadcast_apply, laneMax_apply, laneSum_apply,
    toCol_apply, weightRows_apply, colRows_apply, Ideal.ofBits_def, Ideal.ofBits_zero_f32, negInf]
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) rfl (twxSum_chunk _ _ _ _ _ _ _ _ r)) (twxSum_chunk _ _ _ _ _ _ _ _ r)) (twxSum_chunk _ _ _ _ _ _ _ _ r)) (twxSum_chunk _ _ _ _ _ _ _ _ r)) (twxSum_chunk _ _ _ _ _ _ _ _ r)) (twxSum_chunk _ _ _ _ _ _ _ _ r)) (twxSum_chunk _ _ _ _ _ _ _ _ r)) (twxSum_chunk _ _ _ _ _ _ _ _ r)) (twxSum_chunk _ _ _ _ _ _ _ _ r)) (twxSum_chunk _ _ _ _ _ _ _ _ r))

/-- The last three operations of the body: `(m + l) · a - b`. -/
theorem combine_apply (m a b l : FVec Ideal S64x1 .f32) (i : S64x1.Idx) :
    k0_pay1 (F := Ideal) m a b l i = (m i + l i) * a i - b i := rfl

end Cert.KernelIdeal.Row

end
-- ==== Proof.LibSumBlocks.lean ====
/- A sum over `m · n` consecutive positions, cut into `m` blocks of `n`: in any commutative additive monoid,
   `∑ x < m·n, f x = ∑ a < m, ∑ b < n, f (n·a + b)`; and the same cut applied twice, for a sum over `m · (n · p)` positions
   read as `m` groups of `n` blocks of `p`. What joins a sum taken chunk by chunk (a grid axis, then a loop, then the rows of
   one chunk) to one sum over all the rows. -/
import Mathlib.Algebra.BigOperators.Fin
import Mathlib.Logic.Equiv.Fin.Basic

namespace Cert.Voxel

open Finset

/-- A sum over `Fin (m * n)` is the sum over the `m` blocks of the sums over each block's `n` positions. -/
theorem sum_blocks {M : Type*} [AddCommMonoid M] (m n : ℕ) (f : ℕ → M) :
    ∑ x : Fin (m * n), f x.val = ∑ a : Fin m, ∑ b : Fin n, f (n * a.val + b.val) := by
  rw [← Equiv.sum_comp finProdFinEquiv (fun x : Fin (m * n) => f x.val), Fintype.sum_prod_type]
  refine Finset.sum_congr rfl fun a _ => Finset.sum_congr rfl fun b _ => ?_
  show f (finProdFinEquiv (a, b)).val = _
  rw [finProdFinEquiv_apply_val, Nat.add_comm]

/-- The same with the outer index a natural number below `m`. -/
theorem sum_blocks_range {M : Type*} [AddCommMonoid M] (m n : ℕ) (f : ℕ → M) :
    ∑ x : Fin (m * n), f x.val = ∑ a ∈ range m, ∑ b : Fin n, f (n * a + b.val) := by
  rw [sum_blocks, Fin.sum_univ_eq_sum_range (fun a => ∑ b : Fin n, f (n * a + b.val)) m]

/-- Cut twice: `m` groups of `n` blocks of `p` positions. -/
theorem sum_blocks₂ {M : Type*} [AddCommMonoid M] (m n p : ℕ) (f : ℕ → M) :
    ∑ x : Fin (m * (n * p)), f x.val
      = ∑ a ∈ range m, ∑ b ∈ range n, ∑ c : Fin p, f (n * p * a + (p * b + c.val)) := by
  rw [sum_blocks_range]
  refine Finset.sum_congr rfl fun a _ => ?_
  exact sum_blocks_range n p (fun x => f (n * p * a + x))

end Cert.Voxel
-- ==== Proof.Chunks.lean ====
/-
  A row of 32000 positions taken in ten consecutive chunks of 3200.

  The largest entry of the row is the running maximum, from `⊥`, of the ten chunks' largest entries; the sum of the
  row is the running sum, from `0`, of the ten chunks' sums. Both hold in the order the chunks are met, whatever
  the entries (infinities included): a maximum by its universal property (a bound of the row is a bound of every
  chunk and conversely, position `k` lying in chunk `k / 3200` at offset `k % 3200`), a sum by cutting it into blocks.
-/
import proofs.«181103_j60559038873702_2_alg».proof.Proof.LibSumBlocks
import Mathlib.Data.EReal.Basic
import Mathlib.Tactic.IntervalCases

noncomputable section

namespace Cert.SoftCE

open scoped BigOperators

/-- The largest entry, from `⊥`, of chunk `j` of a row given by position. -/
def chunkMax (f : ℕ → EReal) (j : ℕ) : EReal := (Finset.univ : Finset (Fin 3200)).fold max ⊥ fun i => f (3200 * j + i.val)

/-- The sum of chunk `j`. -/
def chunkSum (f : ℕ → EReal) (j : ℕ) : EReal := ∑ i : Fin 3200, f (3200 * j + i.val)

/-- The running maximum of the ten chunks' largest entries is the largest entry of the row. -/
theorem max_chunks (f : ℕ → EReal) :
    max (max (max (max (max (max (max (max (max (max (⊥) (chunkMax f 0)) (chunkMax f 1)) (chunkMax f 2)) (chunkMax f 3)) (chunkMax f 4)) (chunkMax f 5)) (chunkMax f 6)) (chunkMax f 7)) (chunkMax f 8)) (chunkMax f 9)
      = (Finset.univ : Finset (Fin 32000)).fold max ⊥ fun k => f k.val := by
  refine eq_of_forall_ge_iff fun c => ?_
  simp only [chunkMax, max_le_iff, Finset.fold_max_le, bot_le, true_and, Finset.mem_univ, forall_true_left]
  constructor
  · rintro ⟨⟨⟨⟨⟨⟨⟨⟨⟨h0, h1⟩, h2⟩, h3⟩, h4⟩, h5⟩, h6⟩, h7⟩, h8⟩, h9⟩ k
    have hk := k.isLt
    have hr : k.val % 3200 < 3200 := Nat.mod_lt _ (by norm_num)
    have hd : k.val = 3200 * (k.val / 3200) + k.val % 3200 := (Nat.div_add_mod _ _).symm
    obtain ⟨q, hq⟩ : ∃ q, q = k.val / 3200 := ⟨_, rfl⟩
    have hq10 : q < 10 := by omega
    rw [hd, ← hq]
    interval_cases q
    · exact h0 ⟨_, hr⟩
    · exact h1 ⟨_, hr⟩
    · exact h2 ⟨_, hr⟩
    · exact h3 ⟨_, hr⟩
    · exact h4 ⟨_, hr⟩
    · exact h5 ⟨_, hr⟩
    · exact h6 ⟨_, hr⟩
    · exact h7 ⟨_, hr⟩
    · exact h8 ⟨_, hr⟩
    · exact h9 ⟨_, hr⟩
  · intro h
    refine ⟨⟨⟨⟨⟨⟨⟨⟨⟨?_, ?_⟩, ?_⟩, ?_⟩, ?_⟩, ?_⟩, ?_⟩, ?_⟩, ?_⟩, ?_⟩ <;> intro i <;>
      exact h ⟨_, by have := i.isLt; omega⟩

/-- The running sum of the ten chunks' sums is the sum of the row. -/
theorem sum_chunks (f : ℕ → EReal) :
    0 + chunkSum f 0 + chunkSum f 1 + chunkSum f 2 + chunkSum f 3 + chunkSum f 4 + chunkSum f 5 + chunkSum f 6 + chunkSum f 7 + chunkSum f 8 + chunkSum f 9
      = ∑ k : Fin 32000, f k.val := by
  have h := Cert.Voxel.sum_blocks_range 10 3200 f
  simp only [Finset.sum_range_succ, Finset.sum_range_zero] at h
  exact h.symm

end Cert.SoftCE

end
-- ==== Proof.LibSoftCrossEntropy.lean ====
/-
  The weighted soft cross-entropy of one row, on the extended reals, in its two arrangements.

  A row of scores `x : Fin K → EReal`, a row of targets `t` and a vector of class weights `w` give the loss
  `- ∑ k, t k · w k · log_softmax(x) k`, where `log_softmax(x) k = (x k - max x) - log (∑ k', exp (x k' - max x))`.
  `lossPlain` is that formula as written. `lossFused` is the arrangement that never forms the row of log-probabilities:
  with `L = max x + log (∑ exp (x - max x))` it is `L · ∑ t·w - ∑ t·w·x`. On the extended reals the two differ at
  infinities (a product does not distribute over a sum there); when every score, target and weight is a real number
  and the row is not empty they agree: the largest score is then a real number, the sum of exponentials a positive real,
  its logarithm a real, and the identity is `-(∑ a·(x - m - l)) = (m + l)·∑ a - ∑ a·x` over the reals.
-/
import proofs.«181103_j60559038873702_2_alg».proof.Proof.LibSoftmaxAvg

noncomputable section

namespace Cert.SoftCE

open Idealize.ShloMosaic Cert.Attn
open scoped BigOperators

variable {K : ℕ}

/-- The sum of the exponentials of the scores, each less the row's largest. -/
def expSum (x : Fin K → EReal) : EReal := ∑ k, Ideal.exp (x k - rowMax x)

/-- The loss of one row with the log-sum-exp taken out of the sum. -/
def lossFused (x t w : Fin K → EReal) : EReal :=
  (rowMax x + Ideal.log (expSum x)) * (∑ k, t k * w k) - ∑ k, t k * w k * x k

/-- The loss of one row as the negated weighted sum of the log-probabilities (the sum taken from zero). -/
def lossPlain (x t w : Fin K → EReal) : EReal :=
  -(0 + ∑ k, t k * w k * (x k - rowMax x - Ideal.log (expSum x)))

/-- For a nonempty row of real scores, targets and weights the two arrangements agree. -/
theorem lossFused_eq_lossPlain (hK : 0 < K) (x t w : Fin K → EReal) (hx : ∀ k, IsReal (x k)) (ht : ∀ k, IsReal (t k))
    (hw : ∀ k, IsReal (w k)) : lossFused x t w = lossPlain x t w := by
  obtain ⟨μ, hμ⟩ := rowMax_real hK x hx
  choose x' hx' using hx
  choose t' ht' using ht
  choose w' hw' using hw
  have hS : expSum x = ((∑ k, Real.exp (x' k - μ) : ℝ) : EReal) := by
    unfold expSum
    rw [coe_sum]
    exact Finset.sum_congr rfl fun k _ => by rw [hμ, hx' k, ← EReal.coe_sub]; rfl
  have hpos : 0 < (∑ k, Real.exp (x' k - μ) : ℝ) :=
    Finset.sum_pos (fun k _ => Real.exp_pos _) ⟨⟨0, hK⟩, Finset.mem_univ _⟩
  have hL : Ideal.log (expSum x) = ((Real.log (∑ k, Real.exp (x' k - μ)) : ℝ) : EReal) := by
    rw [hS, Ideal.log_coe, if_neg (not_le.2 hpos)]
  unfold lossFused lossPlain
  rw [hL, hμ]
  simp only [hx', ht', hw', ← EReal.coe_mul, ← EReal.coe_sub, ← EReal.coe_add, ← coe_sum, ← EReal.coe_neg,
    ← EReal.coe_zero]
  refine congrArg _ ?_
  rw [zero_add, Finset.mul_sum, ← Finset.sum_sub_distrib, ← Finset.sum_neg_distrib]
  exact Finset.sum_congr rfl fun k _ => by ring

end Cert.SoftCE

end
-- ==== Proof.BlockRow.lean ====
/-
  One row of what the body leaves in the output block, as the fused row loss of the block's rows.

  The body's store covers the whole 64×1 block, so the block after the body is the stored value. At row `r` that value is
  `(m + log s) · a - b` of the four running quantities; each chunk is a window of the block's row `r` at offset
  `3200 · j`, so the running maximum over the ten chunks is the row's largest entry and the running sums are the row's
  sums: the value is `lossFused` of row `r` of the scores' block, row `r` of the targets' block and the weights' row.
-/
import proofs.«181103_j60559038873702_2_alg».proof.Proof.Gen.KernelIdeal.Frame
import proofs.«181103_j60559038873702_2_alg».proof.Proof.Payload2
import proofs.«181103_j60559038873702_2_alg».proof.Proof.Chunks
import proofs.«181103_j60559038873702_2_alg».proof.Proof.LibSoftCrossEntropy

noncomputable section

namespace Cert.KernelIdeal.Row

open Cert.KernelIdeal Cert.KernelIdeal.Gen Idealize.ShloMosaic Idealize.ShloMosaic.ValueIdx Cert.Attn Cert.SoftCE
open scoped BigOperators

theorem zeros2 : (![0, 0] : Fin 2 → Nat) = fun _ => 0 := funext fun a => by fin_cases a <;> rfl

set_option maxHeartbeats 1000000 in
/-- Row `r` of the output block after the body. -/
theorem block_row (x0 x1 : Vec Ideal S64x32000 .f32) (x2 : Vec Ideal S1x32000 .f32) (r : Fin 64) (u : Fin 1) :
    out0_3 (F := Ideal) x0 x1 x2 (ix2 r u)
      = lossFused (fun k : Fin 32000 => rowFn x0 r k.val) (fun k : Fin 32000 => rowFn x1 r k.val)
          (fun k : Fin 32000 => rowFn x2 (0 : Fin 1) k.val) := by
  unfold out0_3
  rw [View.canon_unit_zero zeros2, combine_apply]
  refine (congrArg₂ (· - ·) (congrArg₂ (· * ·) (congrArg₂ (· + ·) (rowMax_chain _ _ _ _ _ _ _ _ _ _ r u)
    (logSum_chain _ _ _ _ _ _ _ _ _ _ _ r u)) (tw_chain _ _ _ _ _ _ _ _ _ _ _ _ _ _ _ _ _ _ _ _ r u))
    (twx_chain _ _ _ _ _ _ _ _ _ _ _ _ _ _ _ _ _ _ _ _ _ _ _ _ _ _ _ _ _ _ r u)).trans ?_
  simp only [rowMax_chain]
  simp only [chunk_apply x0 0 _ 0 rfl,
    chunk_apply x0 3200 _ 1 rfl,
    chunk_apply x0 6400 _ 2 rfl,
    chunk_apply x0 9600 _ 3 rfl,
    chunk_apply x0 12800 _ 4 rfl,
    chunk_apply x0 16000 _ 5 rfl,
    chunk_apply x0 19200 _ 6 rfl,
    chunk_apply x0 22400 _ 7 rfl,
    chunk_apply x0 25600 _ 8 rfl,
    chunk_apply x0 28800 _ 9 rfl,
    chunk_apply x1 0 _ 0 rfl,
    chunk_apply x1 3200 _ 1 rfl,
    chunk_apply x1 6400 _ 2 rfl,
    chunk_apply x1 9600 _ 3 rfl,
    chunk_apply x1 12800 _ 4 rfl,
    chunk_apply x1 16000 _ 5 rfl,
    chunk_apply x1 19200 _ 6 rfl,
    chunk_apply x1 22400 _ 7 rfl,
    chunk_apply x1 25600 _ 8 rfl,
    chunk_apply x1 28800 _ 9 rfl,
    wchunk_apply x2 0 _ 0 rfl,
    wchunk_apply x2 3200 _ 1 rfl,
    wchunk_apply x2 6400 _ 2 rfl,
    wchunk_apply x2 9600 _ 3 rfl,
    wchunk_apply x2 12800 _ 4 rfl,
    wchunk_apply x2 16000 _ 5 rfl,
    wchunk_apply x2 19200 _ 6 rfl,
    wchunk_apply x2 22400 _ 7 rfl,
    wchunk_apply x2 25600 _ 8 rfl,
    wchunk_apply x2 28800 _ 9 rfl]
  have hM := max_chunks (rowFn x0 r)
  have hS := sum_chunks fun n => Ideal.exp (rowFn x0 r n - (Finset.univ : Finset (Fin 32000)).fold max ⊥ fun k => rowFn x0 r k.val)
  have hTW := sum_chunks fun n => rowFn x1 r n * rowFn x2 (0 : Fin 1) n
  have hTWX := sum_chunks fun n => rowFn x1 r n * rowFn x2 (0 : Fin 1) n * rowFn x0 r n
  simp only [chunkMax, chunkSum] at hM hS hTW hTWX
  rw [hM, hS, hTW, hTWX]
  rfl

end Cert.KernelIdeal.Row

end
-- ==== Proof.KernelValue.lean ====
/-
  The kernel's output array after the run, and the kernel's result.

  Grid point `t` works on rows `64·t … 64·t+63`: its blocks of scores and targets are those rows of the two arrays, its
  block of weights is the one row the weights were reshaped to, and its output block is rows `64·t … 64·t+63` of the
  8192×1 output. So what point `t` writes back is block `t` of ONE column: entry `n` is the fused row loss of row `n` of
  the scores, row `n` of the targets and the weights. The 128 blocks tile the column, hence the output array ends
  holding that column, and the host operations after the region sum it and divide by the number of rows.
-/
import proofs.«181103_j60559038873702_2_alg».proof.Proof.Gen.KernelIdeal.Frame
import proofs.«181103_j60559038873702_2_alg».proof.Proof.BlockRow
import Idealize.ShloMosaic.Lib.Pipeline.Value
import Idealize.ShloMosaic.Lib.ValueLayout
import Idealize.ShloMosaic.Lib.StableHlo.Run

set_option maxRecDepth 16384

noncomputable section

namespace Cert.KernelIdeal.Whole

open Cert.KernelIdeal Cert.KernelIdeal.Gen Cert.KernelIdeal.Row Idealize.ShloMosaic Idealize.ShloMosaic.TcCoe Idealize.ShloMosaic.ValueIdx
open Idealize.SL.Sem Idealize.ShloMosaic.StableHlo Cert.SoftCE
open scoped BigOperators

variable (m : (ℓ : Loc nD τ sig) → Buf (Elt Ideal) ℓ) (ρ : Dev nD → PrngReg)

/-- The column of fused row losses of two arrays of 8192 rows and a vector of weights. -/
def lossColumn (A0 A1 : S8192x32000.Idx → EReal) (A2 : S32000.Idx → EReal) : S8192x1.Idx → EReal :=
  fun i => lossFused (fun k : Fin 32000 => rowFn A0 (i 0 : Fin 8192) k.val) (fun k : Fin 32000 => rowFn A1 (i 0 : Fin 8192) k.val)
    (fun k : Fin 32000 => vecFn A2 k.val)

/-- The printed index maps over the grid: point `t` takes block row `t` of the scores, the targets and the output, block
    column 0 of each, and the one block of the weights' row. -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The weights' row as the region finds it: the weights reshaped to one row. -/
theorem weights_row (c : Dev nD) (k : Fin 32000) :
    (V m c main_v0 : S1x32000.Idx → EReal) (ix2 (0 : Fin 1) k) = (m ((c : Thread nD τ).loc main_arg2) : S32000.Idx → EReal) (ix1 k) := by
  have e : (V m c main_v0 : S1x32000.Idx → EReal)
      = shapeCast S1x32000 (m ((c : Thread nD τ).loc main_arg2) : S32000.Idx → EReal) shapeCasts_S32000_S1x32000 := by
    show StableHlo.after hostOps0 (fun b => m (c, b)) (Proc.devRef .tc main_v0) = _
    after_results
    rfl
  rw [e]
  exact shapeCast_a_1a_apply _ _ (0 : Fin 1) k

/-- Point `t`'s block of scores at `(r, k)` is the scores at row `64·t + r`. -/
theorem scores_block (c : Dev nD) (t : Fin cfg0.N) (r : Fin 64) (k : Fin 32000) (n : Fin 8192) (hn : n.val = 64 * t.val + r.val) :
    (iblk m c 0 t : Vec Ideal S64x32000 .f32) (ix2 r k)
      = (m ((c : Thread nD τ).loc main_arg0) : S8192x32000.Idx → EReal) (ix2 n k) := by
  obtain ⟨e0, e1, -⟩ := index_facts t
  unfold iblk
  rw [View.read_apply]
  show V m c main_arg0 _ = m (c.tc.loc main_arg0) _
  refine (congrFun (V_main_arg0 m c) _).trans (congrArg _ (funext fun a => Fin.ext ?_))
  match a with
  | ⟨0, _⟩ => show win0_0.index t 0 * 64 + 1 * r.val = n.val; rw [e0, hn]; omega
  | ⟨1, _⟩ => show win0_0.index t 1 * 32000 + 1 * k.val = k.val; rw [e1]; omega

/-- Point `t`'s block of targets at `(r, k)` is the targets at row `64·t + r`. -/
theorem targets_block (c : Dev nD) (t : Fin cfg0.N) (r : Fin 64) (k : Fin 32000) (n : Fin 8192) (hn : n.val = 64 * t.val + r.val) :
    (iblk m c 1 t : Vec Ideal S64x32000 .f32) (ix2 r k)
      = (m ((c : Thread nD τ).loc main_arg1) : S8192x32000.Idx → EReal) (ix2 n k) := by
  obtain ⟨-, -, e2, e3, -⟩ := index_facts t
  unfold iblk
  rw [View.read_apply]
  show V m c main_arg1 _ = m (c.tc.loc main_arg1) _
  refine (congrFun (V_main_arg1 m c) _).trans (congrArg _ (funext fun a => Fin.ext ?_))
  match a with
  | ⟨0, _⟩ => show win0_1.index t 0 * 64 + 1 * r.val = n.val; rw [e2, hn]; omega
  | ⟨1, _⟩ => show win0_1.index t 1 * 32000 + 1 * k.val = k.val; rw [e3]; omega

/-- Every point's block of weights is the weights' one row. -/
theorem weights_block (c : Dev nD) (t : Fin cfg0.N) (k : Fin 32000) :
    (iblk m c 2 t : Vec Ideal S1x32000 .f32) (ix2 (0 : Fin 1) k)
      = (m ((c : Thread nD τ).loc main_arg2) : S32000.Idx → EReal) (ix1 k) := by
  obtain ⟨-, -, -, -, e4, e5, -⟩ := index_facts t
  unfold iblk
  rw [View.read_apply]
  show V m c main_v0 _ = _
  refine (congrArg (V m c main_v0 : S1x32000.Idx → EReal) (funext fun a => Fin.ext ?_)).trans (weights_row m c k)
  match a with
  | ⟨0, _⟩ => show win0_2.index t 0 * 1 + 1 * 0 = 0; rw [e4]
  | ⟨1, _⟩ => show win0_2.index t 1 * 32000 + 1 * k.val = k.val; rw [e5]; omega

/-- What point `t` writes back is block `t` of the column of fused row losses of the argument arrays. -/
theorem flushed_eq (c : Dev nD) (t : Fin cfg0.N) :
    (dats m 0 c).flushed 3 t = ((cfg0.win 3).blk t).view.read (Elt Ideal)
      (lossColumn (m ((c : Thread nD τ).loc main_arg0)) (m ((c : Thread nD τ).loc main_arg1)) (m ((c : Thread nD τ).loc main_arg2))) := by
  obtain ⟨-, -, -, -, -, -, e6, -⟩ := index_facts t
  show (cfg0.win 3).cut (grid0.coords t) ((dats m 0 c).after 3 t) = _
  rw [after0_3]
  funext j
  obtain ⟨r, u, rfl⟩ : ∃ (r : Fin 64) (u : Fin 1), j = ix2 r u := ⟨j 0, j 1, eq_ix2 j⟩
  show out0_3 (iblk m c 0 t) (iblk m c 1 t) (iblk m c 2 t) (ix2 r u)
    = lossColumn _ _ _ (((cfg0.win 3).blk t).view.emb (ix2 r u))
  refine (block_row (iblk m c 0 t) (iblk m c 1 t) (iblk m c 2 t) r u).trans ?_
  have hrow : ((((cfg0.win 3).blk t).view.emb (ix2 r u) 0 : Fin 8192)).val = 64 * t.val + r.val := by
    show win0_3.index t 0 * 64 + 1 * r.val = _; rw [e6]; omega
  unfold lossColumn
  refine congr (congr (congrArg lossFused ?_) ?_) ?_ <;> funext k
  · exact (rowFn_val _ r k).trans ((scores_block m c t r k _ hrow).trans (rowFn_val _ _ k).symm)
  · exact (rowFn_val _ r k).trans ((targets_block m c t r k _ hrow).trans (rowFn_val _ _ k).symm)
  · exact (rowFn_val _ (0 : Fin 1) k).trans ((weights_block m c t k).trans (vecFn_val _ k).symm)

/-- An index of the output column is in point `t`'s block iff each coordinate is in the block's range. -/
theorem mem_block (t : Fin cfg0.N) (i : S8192x1.Idx) :
    i ∈ ((cfg0.win 3).blk t).view.set ↔ ∀ a : Fin 2, win0_3.index t a * S64x1.size a ≤ (i a).val
      ∧ (i a).val < win0_3.index t a * S64x1.size a + S64x1.size a := by
  show i ∈ ((View.whole main_v1).slice (win0_3.rect t)).set ↔ _
  rw [View.set_slice_whole, Rect.mem_set_unit]
  exact Iff.rfl

/-- Row `n` of the output column lies in the block of point `n / 64`. -/
theorem covered (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  have hN : cfg0.N = 128 := N_0
  have ht : (i 0).val / 64 < cfg0.N := by rw [hN]; omega
  obtain ⟨-, -, -, -, -, -, e6, e7⟩ := index_facts ⟨(i 0).val / 64, ht⟩
  have e6' : win0_3.index ⟨(i 0).val / 64, ht⟩ (0 : Fin 2) = (i 0).val / 64 := e6
  refine ⟨⟨(i 0).val / 64, ht⟩, flush0_3 _, ?_⟩
  rw [mem_block]
  intro a
  match a with
  | ⟨0, _⟩ =>
    show win0_3.index ⟨(i 0).val / 64, ht⟩ (0 : Fin 2) * 64 ≤ (i 0).val ∧ (i 0).val < win0_3.index ⟨(i 0).val / 64, ht⟩ (0 : Fin 2) * 64 + 64
    rw [e6']; omega
  | ⟨1, _⟩ =>
    show win0_3.index ⟨(i 0).val / 64, ht⟩ (1 : Fin 2) * 1 ≤ (i 1).val ∧ (i 1).val < win0_3.index ⟨(i 0).val / 64, ht⟩ (1 : Fin 2) * 1 + 1
    rw [e7]; omega

/-- The output array after the run: the column of fused row losses. -/
theorem final (c : Dev nD) : (dats m 0 c).arrAt 3 cfg0.N
    = lossColumn (m ((c : Thread nD τ).loc main_arg0)) (m ((c : Thread nD τ).loc main_arg1)) (m ((c : Thread nD τ).loc main_arg2)) :=
  (dats m 0 c).arrAt_eq_of_cover 3 _ (fun t _ => flushed_eq m c t) covered

/-- The host operations after the region: the column read as a vector, summed from zero and divided by 8192. -/
def meanOfColumn (col : S8192x1.Idx → EReal) : (⟨S_, .f32⟩ : BufTy).Contents (Elt Ideal) :=
  Host.divf (Host.reduceAdd (F := Ideal) (shapeCast S8192 col shapeCasts_S8192x1_S8192) (constant (F := Ideal) S_ .f32 0x00000000#32) reducesTo_S8192_S_d0 h_S_)
    (constant (F := Ideal) S_ .f32 0x46000000#32)

/-- The result buffer after the lines that follow the region. -/
theorem tail_eq (c : Dev nD) :
    Pipeline.afterTail₀ cfgs (dats m) 0 (V0 m) [hostOps1] c main_v4
      = meanOfColumn (lossColumn (m ((c : Thread nD τ).loc main_arg0)) (m ((c : Thread nD τ).loc main_arg1)) (m ((c : Thread nD τ).loc main_arg2))) := by
  unfold Pipeline.afterTail₀
  show StableHlo.after hostOps1 _ (Proc.devRef .tc main_v4) = _
  after_results
  have hW : Pipeline.withArrays (cfgs 0).spec c (V0 m c) (fun w => (dats m 0 c).arrAt w (cfgs 0).N) (Proc.devRef .tc main_v1)
      = lossColumn (m ((c : Thread nD τ).loc main_arg0)) (m ((c : Thread nD τ).loc main_arg1)) (m ((c : Thread nD τ).loc main_arg2)) :=
    (Pipeline.withArrays_arr spec0 launch0.win.arr_inj c _ _ 3).trans (final m c)
  rw [hW]
  rfl

/-- The kernel's run, read: every weakly fair execution terminates with the result at the mean of the column of fused
    row losses of the argument arrays, and the argument arrays unchanged. -/
theorem run : θ_run defs (onTc (τ := τ) (main (F := Ideal))) ⟨m, fun _ => 0, ρ⟩ fun r => ∀ c : Dev nD,
      r.2.mem ((c.tc : Thread nD τ).loc main_v4)
        = meanOfColumn (lossColumn (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Whole

end
-- ==== Proof.Finite.lean ====
/-
  The precondition read back: every entry of the three argument arrays is a real number.

  The precondition is the conjunction of three `all |x| < +∞` tests, one per argument, each a reduction by `and` of
  the entrywise comparison from the constant one. A conjunction that is one has both conjuncts one; a reduction by
  `and` that is one met only ones; and an extended real whose absolute value `max x (-x)` is below `+∞` is neither
  infinity, hence a real number.
-/
import proofs.«181103_j60559038873702_2_alg».proof.Pre_finite_inputs
import proofs.«181103_j60559038873702_2_alg».proof.Proof.LibSoftmaxAvg
import Idealize.ShloMosaic.Lib.ReduceAll
import Idealize.ShloMosaic.Lib.ValueIdx
import Idealize.ShloMosaic.PureOps.Ideal.Laws

noncomputable section

namespace Cert.Finite

open Idealize.ShloMosaic Cert.Attn Cert.Pre_finite_inputs

instance : Subsingleton S_.Idx := ⟨fun _ _ => funext fun d => d.elim0⟩

/-- The f32 pattern of +∞ denotes `⊤`. -/
theorem posInf : Ideal.ofBits .f32 0x7F800000#32 = ⊤ := by simp [Ideal.ofBits, Ideal.ieee]

/-- An extended real whose absolute value tests below `+∞` is a real number. -/
theorem real_of_abs_lt (x : EReal)
    (h : FloatOps.cmpf (F := Ideal) (φ := .f32) .olt (FloatOps.hostAbsf (F := Ideal) (φ := .f32) x) (Ideal.ofBits .f32 0x7F800000#32) = 1#1) :
    IsReal x := by
  have h' : max x (-x) < ⊤ := by
    by_contra hc
    have e : FloatOps.cmpf (F := Ideal) (φ := .f32) .olt (FloatOps.hostAbsf (F := Ideal) (φ := .f32) x) (Ideal.ofBits .f32 0x7F800000#32) = 0#1 := by
      rw [posInf]
      show BitVec.ofBool (decide (max x (-x) < ⊤)) = 0#1
      rw [decide_eq_false hc]
      rfl
    rw [e] at h
    exact absurd h (by decide)
  obtain ⟨h1, h2⟩ := max_lt_iff.1 h'
  have hx2 : x ≠ ⊥ := fun e => by rw [e, EReal.neg_bot] at h2; exact lt_irrefl _ h2
  exact ⟨x.toReal, (EReal.coe_toReal h1.ne hx2).symm⟩

variable [Facts]

/-- Under the precondition every entry of the scores, the targets and the class weights is a real number. -/
theorem all_real (a0 a1 : FVec Ideal S8192x32000 .f32) (a2 : FVec Ideal S32000 .f32)
    (h : fn (F := Ideal) a0 a1 a2 = fun _ => 1#1) :
    (∀ i, IsReal (a0 i)) ∧ (∀ i, IsReal (a1 i)) ∧ (∀ i, IsReal (a2 i)) := by
  have h0 := congrFun h ValueIdx.ix0
  dsimp only [fn] at h0
  obtain ⟨h01, h2⟩ := IntOp.andi_eq_one.1 h0
  obtain ⟨h0', h1⟩ := IntOp.andi_eq_one.1 h01
  exact ⟨fun i => real_of_abs_lt _ (Host.reduce_andi_all _ _ _ _ _ h0' i),
    fun i => real_of_abs_lt _ (Host.reduce_andi_all _ _ _ _ _ h1 i),
    fun i => real_of_abs_lt _ (Host.reduce_andi_all _ _ _ _ _ h2 i)⟩

end Cert.Finite

end
-- ==== Proof.RefValue.lean ====
/-
  The reference's loss of one row, read off its host operations.

  At the extended reals each stage of the reference reads at an index: the reduction of a row of scores by maximum
  from `-∞` is the row's largest entry; a value kept per row and broadcast back along the row is read at the row; the
  class weights, broadcast first to one row and then to every row, are read at the column; a host sum of a row from zero
  is zero plus the row's sum. Together: row `n` of `rowLosses` is `lossPlain` of row `n` of the scores, row `n` of the
  targets and the weights.
-/
import proofs.«181103_j60559038873702_2_alg».proof.Proof.RefRun
import proofs.«181103_j60559038873702_2_alg».proof.Proof.LibRowOps
import proofs.«181103_j60559038873702_2_alg».proof.Proof.LibSoftmaxAvg
import proofs.«181103_j60559038873702_2_alg».proof.Proof.Rows
import proofs.«181103_j60559038873702_2_alg».proof.Proof.LibSoftCrossEntropy
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.Hand

open Cert.ReferenceIdeal Cert.ReferenceIdeal.Gen Idealize.ShloMosaic Idealize.ShloMosaic.ValueIdx Cert.RowOps Cert.Attn Cert.SoftCE
open scoped BigOperators

/-- A scalar broadcast to a vector reads the scalar. -/
theorem splat_apply (v : (⟨0, ![]⟩ : Shape).Idx → EReal) (h : (⟨0, ![]⟩ : Shape).BroadcastsInDim ⟨1, ![8192]⟩ (![] : Fin 0 → Fin 1))
    (n : Fin 8192) : broadcastInDim ⟨1, ![8192]⟩ (![] : Fin 0 → Fin 1) h v (ix1 n) = v ix0 :=
  broadcastInDim_apply _ h v (ix1 n) ix0 fun a => a.elim0

/-- A vector broadcast to one row reads, at `(u, k)`, its entry `k`. -/
theorem oneRow_apply (w : (⟨1, ![32000]⟩ : Shape).Idx → EReal)
    (h : (⟨1, ![32000]⟩ : Shape).BroadcastsInDim ⟨2, ![1, 32000]⟩ (![1] : Fin 1 → Fin 2)) (u : Fin 1) (k : Fin 32000) :
    broadcastInDim ⟨2, ![1, 32000]⟩ (![1] : Fin 1 → Fin 2) h w (ix2 u k) = w (ix1 k) := by
  refine broadcastInDim_apply _ h w (ix2 u k) (ix1 k) fun a => ?_
  match a with
  | ⟨0, _⟩ => show k.val = if (32000 : ℕ) = 1 then 0 else k.val; rw [if_neg (by decide)]

/-- One row broadcast to every row reads, at `(n, k)`, its entry `(0, k)`. -/
theorem everyRow_apply (v : (⟨2, ![1, 32000]⟩ : Shape).Idx → EReal)
    (h : (⟨2, ![1, 32000]⟩ : Shape).BroadcastsInDim ⟨2, ![8192, 32000]⟩ (![0, 1] : Fin 2 → Fin 2)) (n : Fin 8192) (k : Fin 32000) :
    broadcastInDim ⟨2, ![8192, 32000]⟩ (![0, 1] : Fin 2 → Fin 2) h v (ix2 n k) = v (ix2 (0 : Fin 1) k) := by
  refine broadcastInDim_apply _ h v (ix2 n k) (ix2 (0 : Fin 1) k) fun a => ?_
  match a with
  | ⟨0, _⟩ => show 0 = if (1 : ℕ) = 1 then 0 else n.val; rw [if_pos rfl]
  | ⟨1, _⟩ => show k.val = if (32000 : ℕ) = 1 then 0 else k.val; rw [if_neg (by decide)]

/-- The host's pointwise exponential, logarithm and negation read at an index. -/
theorem hostExp_apply {s : Shape} (a : FVec Ideal s .f32) (i : s.Idx) : Host.exp a i = Ideal.exp (a i) := rfl
theorem hostLog_apply {s : Shape} (a : FVec Ideal s .f32) (i : s.Idx) : Host.log a i = Ideal.log (a i) := rfl
theorem hostNeg_apply {s : Shape} (a : FVec Ideal s .f32) (i : s.Idx) : Host.negf a i = -(a i) := rfl

-- the reductions over whole arrays stay closed terms: they are read only through the lemmas that state their value at an index
attribute [local irreducible] Host.reduce Host.reduceAdd

variable (x0 x1 : FVec Ideal S8192x32000 .f32) (x2 : FVec Ideal S32000 .f32)

/-- The largest entry of row `n` of the scores. -/
theorem rowMaxes_apply (n : Fin 8192) : rowMaxes (F := Ideal) x0 (ix1 n) = rowMax fun k : Fin 32000 => rowFn x0 n k.val := by
  have hr : S8192x32000.Reduces [1] S8192 := reducesTo_S8192x32000_S8192_d1.elim fun e hb => ⟨e, Nat.one_pos, hb⟩
  unfold rowMaxes
  refine (maximumf_apply _ _ (ix1 n)).trans ?_
  rw [splat_apply, Host.reduce_eq_fold_single FloatOps.maximumf x0 _ reducesTo_S8192x32000_S8192_d1 hr h_S_ (ix1 n)]
  have e : (x0 ∘ hr.lift (ix1 n)) = fun k : Fin 32000 => rowFn x0 n k.val :=
    funext fun k => (congrArg x0 (lift_row hr n k)).trans (rowFn_val x0 n k).symm
  rw [e, constant_apply, constant_apply, negInf, max_bot_left]
  rfl

/-- A shifted score: the score less its row's largest. -/
theorem shifted_apply (n : Fin 8192) (k : Fin 32000) :
    shifted (F := Ideal) x0 (ix2 n k) = rowFn x0 n k.val - rowMax fun k : Fin 32000 => rowFn x0 n k.val := by
  unfold shifted
  refine (subf_apply _ _ (ix2 n k)).trans ?_
  rw [bcastRows, bcastCol, rowMaxes_apply, rowFn_val]

/-- The logarithm of row `n`'s sum of exponentials. -/
theorem logSums_apply (n : Fin 8192) (u : Fin 1) :
    logSums (F := Ideal) x0 (ix2 n u) = Ideal.log (expSum fun k : Fin 32000 => rowFn x0 n k.val) := by
  unfold logSums
  refine (hostLog_apply _ (ix2 n u)).trans ?_
  rw [bcastCol, rowSumH]
  unfold expSum
  refine congrArg Ideal.log ((congrArg₂ (· + ·) ((constant_apply _ _).trans Ideal.ofBits_zero_f32) rfl).trans ((zero_add _).trans ?_))
  exact Finset.sum_congr rfl fun k _ => (hostExp_apply _ (ix2 n k)).trans (congrArg Ideal.exp (shifted_apply x0 n k))

/-- Row `n` of the reference's losses is the plain arrangement of the row loss. -/
theorem rowLosses_apply (n : Fin 8192) :
    rowLosses (F := Ideal) x0 x1 x2 (ix1 n)
      = lossPlain (fun k : Fin 32000 => rowFn x0 n k.val) (fun k => rowFn x1 n k.val) (fun k => vecFn x2 k.val) := by
  unfold rowLosses
  refine (hostNeg_apply _ (ix1 n)).trans ?_
  rw [rowSumH]
  unfold lossPlain
  refine congrArg Neg.neg (congrArg₂ (· + ·) ((constant_apply _ _).trans Ideal.ofBits_zero_f32) (Finset.sum_congr rfl fun k _ => ?_))
  unfold weighted logProbs
  refine (mulf_apply _ _ (ix2 n k)).trans ?_
  rw [mulf_apply, subf_apply, everyRow_apply, oneRow_apply, bcastRows, shifted_apply, logSums_apply]
  simp only [rowFn_val, vecFn_val]

end Cert.ReferenceIdeal.Hand

end
-- ==== Proof.Bridge.lean ====
/-
  The two programs' results are one value when every input is a real number.

  Row `n` of the reference's vector of losses is the plain arrangement of the row loss; entry `n` of the kernel's
  output column is the fused arrangement; for real scores, targets and weights the two agree. The kernel reads its
  column as a vector before summing it, which reads entry `(n, 0)` at `n`. Both programs then apply the same
  sum-from-zero and division to that vector.
-/
import proofs.«181103_j60559038873702_2_alg».proof.Proof.RefValue
import proofs.«181103_j60559038873702_2_alg».proof.Proof.KernelValue
import proofs.«181103_j60559038873702_2_alg».proof.Proof.LibSoftCrossEntropy
import proofs.«181103_j60559038873702_2_alg».proof.Proof.Rows
import proofs.«181103_j60559038873702_2_alg».proof.Proof.LibSoftmaxAvg
import Idealize.ShloMosaic.Lib.Pipeline.Value
import Idealize.ShloMosaic.Lib.ValueIdx

noncomputable section

namespace Cert.Bridge

open Idealize.ShloMosaic Idealize.ShloMosaic.ValueIdx Cert.Attn Cert.SoftCE

/-- An `[a, 1]` column cast to an `[a]` vector reads, at `i`, the column's entry `(i, 0)`. -/
theorem shapeCast_a1_a_apply {a : ℕ} {α : Type} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

variable (A0 A1 : (⟨2, ![8192, 32000]⟩ : Shape).Idx → EReal) (A2 : (⟨1, ![32000]⟩ : Shape).Idx → EReal)

/-- The reference's vector of row losses is the kernel's column read as a vector. -/
theorem rows_agree (h0 : ∀ i, IsReal (A0 i)) (h1 : ∀ i, IsReal (A1 i)) (h2 : ∀ i, IsReal (A2 i)) :
    Cert.ReferenceIdeal.Hand.rowLosses (F := Ideal) A0 A1 A2
      = shapeCast Cert.KernelIdeal.S8192 (Cert.KernelIdeal.Whole.lossColumn A0 A1 A2) Cert.KernelIdeal.Facts₀.shapeCasts_S8192x1_S8192 := by
  funext j
  obtain ⟨n, rfl⟩ : ∃ n : Fin 8192, j = ix1 n := ⟨j 0, eq_ix1 j⟩
  refine (Cert.ReferenceIdeal.Hand.rowLosses_apply A0 A1 A2 n).trans ?_
  refine (lossFused_eq_lossPlain (by norm_num) _ _ _ (fun k => ?_) (fun k => ?_) (fun k => ?_)).symm.trans ?_
  · rw [rowFn_val]; exact h0 _
  · rw [rowFn_val]; exact h1 _
  · rw [vecFn_val]; exact h2 _
  · exact (shapeCast_a1_a_apply (Cert.KernelIdeal.Whole.lossColumn A0 A1 A2) _ n).symm

/-- The reference's result is the kernel's. -/
theorem mean_agree (h0 : ∀ i, IsReal (A0 i)) (h1 : ∀ i, IsReal (A1 i)) (h2 : ∀ i, IsReal (A2 i)) :
    Cert.ReferenceIdeal.Hand.meanLoss (F := Ideal) (Cert.ReferenceIdeal.Hand.rowLosses (F := Ideal) A0 A1 A2)
      = Cert.KernelIdeal.Whole.meanOfColumn (Cert.KernelIdeal.Whole.lossColumn A0 A1 A2) := by
  rw [rows_agree A0 A1 A2 h0 h1 h2]
  rfl

end Cert.Bridge

end
-- ==== Proof.lean ====
/-
  The certificate of a weighted soft cross-entropy loss kernel against its reference.

  Both programs compute, for scores `x`, targets `t` (8192 rows of 32000 classes) and class weights `w`, the mean over the
  rows of `- ∑ k, t k · w k · log_softmax(x) k`. The reference forms the log-probabilities; the kernel, on blocks of 64
  rows and in ten chunks of 3200 classes, forms per row the largest score `m`, `s = ∑ exp (x - m)`, `∑ t·w` and `∑ t·w·x`,
  and stores `(m + log s) · ∑ t·w - ∑ t·w·x`. The two arrangements agree when every input is a real number, which the
  precondition gives. The kernel's run and frames come from the generated frame; the reference's run is a straight line
  of host operations.
-/
import proofs.«181103_j60559038873702_2_alg».proof.Defs
import proofs.«181103_j60559038873702_2_alg».proof.Proof.Gen.Kernel
import proofs.«181103_j60559038873702_2_alg».proof.Proof.Gen.Kernel.Frame
import proofs.«181103_j60559038873702_2_alg».proof.Proof.Gen.KernelIdeal
import proofs.«181103_j60559038873702_2_alg».proof.Proof.Gen.KernelIdeal.Frame
import proofs.«181103_j60559038873702_2_alg».proof.Proof.Gen.ReferenceIdeal
import proofs.«181103_j60559038873702_2_alg».proof.Proof.Gen.Pre_finite_inputs
import proofs.«181103_j60559038873702_2_alg».proof.Proof.RefRun
import proofs.«181103_j60559038873702_2_alg».proof.Proof.KernelValue
import proofs.«181103_j60559038873702_2_alg».proof.Proof.Finite
import proofs.«181103_j60559038873702_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Hand.run (F := Ideal) m ρ)

/-- Both idealized programs end with the mean of the rows' losses: the kernel's output column holds the fused row losses
    (its blocks tile the column), the reference's vector the plain ones, and under the precondition every input is a real
    number, where the two arrangements are one value. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2]
  obtain ⟨h0, h1, h2⟩ := Cert.Finite.all_real _ _ _ (hpre c)
  exact Cert.Bridge.mean_agree _ _ _ h0 h1 h2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
